-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S512x1024 : Shape := ⟨2, ![512, 1024]⟩
abbrev S512 : Shape := ⟨1, ![512]⟩
abbrev S64x512 : Shape := ⟨2, ![64, 512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  main_v18

def fn {F : FTy → Type} [FloatOps F] (main_arg0 : FVec F S8x4096x1024 .f32) (main_arg1 : FVec F S512x1024 .f32) (main_arg2 : FVec F S512 .f32) (main_arg3 : FVec F S64x512 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_v13 main_v16
-- ==== Kernel.lean ====
abbrev S8x4096x1024 : Shape := ⟨3, ![8, 4096, 1024]⟩
abbrev S512x1024 : Shape := ⟨2, ![512, 1024]⟩
abbrev S512 : Shape := ⟨1, ![512]⟩
abbrev S64x512 : Shape := ⟨2, ![64, 512]⟩
abbrev S1x512 : Shape := ⟨2, ![1, 512]⟩
abbrev S8x64x1024 : Shape := ⟨3, ![8, 64, 1024]⟩
abbrev S1x2048x1024 : Shape := ⟨3, ![1, 2048, 1024]⟩
abbrev S1x64x1024 : Shape := ⟨3, ![1, 64, 1024]⟩
abbrev S64x1 : Shape := ⟨2, ![64, 1]⟩
abbrev S64x1024 : Shape := ⟨2, ![64, 1024]⟩
abbrev S2048x1024 : Shape := ⟨2, ![2048, 1024]⟩
abbrev S2048x512 : Shape := ⟨2, ![2048, 512]⟩
abbrev S64x2048 : Shape := ⟨2, ![64, 2048]⟩
abbrev S64 : Shape := ⟨1, ![64]⟩

abbrev nBuf : Space → Nat
  | .hbm => 8
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S512x1024, .f32⟩
  | .hbm, ⟨2, _⟩ => ⟨S512, .f32⟩
  | .hbm, ⟨3, _⟩ => ⟨S64x512, .f32⟩
  | .hbm, ⟨4, _⟩ => ⟨S512x1024, .bf16⟩
  | .hbm, ⟨5, _⟩ => ⟨S64x512, .bf16⟩
  | .hbm, ⟨6, _⟩ => ⟨S1x512, .f32⟩
  | .hbm, ⟨7, _⟩ => ⟨S8x64x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S512x1024, .bf16⟩
  | .local _ .vmem, ⟨3, _⟩ => ⟨S1x512, .f32⟩
  | .local _ .vmem, ⟨4, _⟩ => ⟨S64x512, .bf16⟩
  | .local _ .vmem, ⟨5, _⟩ => ⟨S1x64x1024, .f32⟩
  | .local _ .vmem, ⟨6, _⟩ => ⟨S1x64x1024, .f32⟩
  | .local _ .vmem, ⟨7, _⟩ => ⟨S64x1, .f32⟩
  | .local _ .vmem, ⟨8, _⟩ => ⟨S64x1, .f32⟩
  | .local _ .vmem, ⟨9, _⟩ => ⟨S64x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_25 : BitVec 32 := 0#32
  let v48 : BitVec 1 := Scalar.cmpi .ne v47 c0_i32_25
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S512_S1x512 : S512.ShapeCasts S1x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x512_S2048x512 : S1x512.Broadcasts S2048x512
  reduces_S64x2048_S64 : S64x2048.Reduces [1] S64
  shapeCasts_S64_S64x1 : S64.ShapeCasts S64x1
  broadcasts_S64x1_S64x2048 : S64x1.Broadcasts S64x2048
  broadcasts_S64x1_S64x1024 : S64x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  dot_S2048x1024_S512x1024_S2048x512_1_1_0_0_n_n_wf : DotDims.WF S2048x1024 S512x1024 S2048x512 [1] [1] [0] [0] [] []
  dot_S64x512_S2048x512_S64x2048_1_1_0_0_n_n_wf : DotDims.WF S64x512 S2048x512 S64x2048 [1] [1] [0] [0] [] []
  dot_S64x2048_S2048x1024_S64x1024_1_0_0_1_n_n_wf : DotDims.WF S64x2048 S2048x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .bf16 = 32 ∨ (Rect.block (s := S64x512) S64x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S8x64x1024.size a
  hwx0_4 : ∀ i : grid0.Coords, EltTy.bits .f32 = 32 ∨ (Rect.block (s := S8x64x1024) S1x64x1024.size (cc0_transform_4 i) (hinb0_4 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S64x512_S2048x512_S64x2048_1_1_0_0_n_n : DotDims S64x512 S2048x512 S64x2048 where
  lhsContracting := [1]
  rhsContracting := [1]
  lhsNonContracting := [0]
  rhsNonContracting := [0]
  lhsBatch := []
  rhsBatch := []
  wf := dot_S64x512_S2048x512_S64x2048_1_1_0_0_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S512x1024 : Shape := ⟨2, ![512, 1024]⟩
abbrev S512 : Shape := ⟨1, ![512]⟩
abbrev S64x512 : Shape := ⟨2, ![64, 512]⟩
abbrev S8x4096x512 : Shape := ⟨3, ![8, 4096, 512]⟩
abbrev S1x1x512 : Shape := ⟨3, ![1, 1, 512]⟩
abbrev S64x8x4096 : Shape := ⟨3, ![64, 8, 4096]⟩
abbrev S8x64x4096 : Shape := ⟨3, ![8, 64, 4096]⟩
abbrev S_ : Shape := ⟨0, ![]⟩
abbrev S8x64 : Shape := ⟨2, ![8, 64]⟩
abbrev S8x64x1 : Shape := ⟨3, ![8, 64, 1]⟩
abbrev S8x64x1024 : Shape := ⟨3, ![8, 64, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S512x1024, .f32⟩
  | .hbm, ⟨2, _⟩ => ⟨S512, .f32⟩
  | .hbm, ⟨3, _⟩ => ⟨S64x512, .f32⟩
  | .hbm, ⟨4, _⟩ => ⟨S8x4096x512, .f32⟩
  | .hbm, ⟨5, _⟩ => ⟨S1x1x512, .f32⟩
  | .hbm, ⟨6, _⟩ => ⟨S8x4096x512, .f32⟩
  | .hbm, ⟨7, _⟩ => ⟨S8x4096x512, .f32⟩
  | .hbm, ⟨8, _⟩ => ⟨S64x8x4096, .f32⟩
  | .hbm, ⟨9, _⟩ => ⟨S8x64x4096, .f32⟩
  | .hbm, ⟨10, _⟩ => ⟨S_, .f32⟩
  | .hbm, ⟨11, _⟩ => ⟨S8x64, .f32⟩
  | .hbm, ⟨12, _⟩ => ⟨S_, .f32⟩
  | .hbm, ⟨13, _⟩ => ⟨S8x64, .f32⟩
  | .hbm, ⟨14, _⟩ => ⟨S8x64, .f32⟩
  | .hbm, ⟨15, _⟩ => ⟨S8x64x1, .f32⟩
  | .hbm, ⟨16, _⟩ => ⟨S8x64x4096, .f32⟩
  | .hbm, ⟨17, _⟩ => ⟨S8x64x4096, .f32⟩
  | .hbm, ⟨18, _⟩ => ⟨S8x64x4096, .f32⟩
  | .hbm, ⟨19, _⟩ => ⟨S_, .f32⟩
  | .hbm, ⟨20, _⟩ => ⟨S8x64, .f32⟩
  | .hbm, ⟨21, _⟩ => ⟨S8x64x1, .f32⟩
  | .hbm, ⟨22, _⟩ => ⟨S8x64x4096, .f32⟩
  | .hbm, ⟨23, _⟩ => ⟨S8x64x4096, .f32⟩
  | .hbm, ⟨24, _⟩ => ⟨S8x64x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x4096x512_0_1_2 : S1x1x512.BroadcastsInDim S8x4096x512 (![0, 1, 2] : Fin 3 → Fin S8x4096x512.rank)
  transposes_S64x8x4096_S8x64x4096_1_0_2 : S64x8x4096.Transposes [1, 0, 2] S8x64x4096
  reducesTo_S8x64x4096_S8x64_d2 : S8x64x4096.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x4096_0_1_2 : S8x64x1.BroadcastsInDim S8x64x4096 (![0, 1, 2] : Fin 3 → Fin S8x64x4096.rank)
  dot_S8x4096x1024_S512x1024_S8x4096x512_2_1_01_0_n_n_wf : DotDims.WF S8x4096x1024 S512x1024 S8x4096x512 [2] [1] [0, 1] [0] [] []
  dot_S64x512_S8x4096x512_S64x8x4096_1_2_0_01_n_n_wf : DotDims.WF S64x512 S8x4096x512 S64x8x4096 [1] [2] [0] [0, 1] [] []
  dot_S8x64x4096_S8x4096x1024_S8x64x1024_2_1_1_2_0_0_wf : DotDims.WF S8x64x4096 S8x4096x1024 S8x64x1024 [2] [1] [1] [2] [0] [0]

variable [Facts₀]

def dot_S8x4096x1024_S512x1024_S8x4096x512_2_1_01_0_n_n : DotDims S8x4096x1024 S512x1024 S8x4096x512 where
  lhsContracting := [2]
  rhsContracting := [1]
  lhsNonContracting := [0, 1]
  rhsNonContracting := [0]
  lhsBatch := []
  rhsBatch := []
  wf := dot_S8x4096x1024_S512x1024_S8x4096x512_2_1_01_0_n_n_wf
def dot_S64x512_S8x4096x512_S64x8x4096_1_2_0_01_n_n : DotDims S64x512 S8x4096x512 S64x8x4096 where
  lhsContracting := [1]
  rhsContracting := [2]
  lhsNonContracting := [0]
  rhsNonContracting := [0, 1]
  lhsBatch := []
  rhsBatch := []
  wf := dot_S64x512_S8x4096x512_S64x8x4096_1_2_0_01_n_n_wf
def dot_S8x64x4096_S8x4096x1024_S8x64x1024_2_1_1_2_0_0 : DotDims S8x64x4096 S8x4096x1024 S8x64x1024 where
  lhsContracting := [2]
  rhsContracting := [1]
  lhsNonContracting := [1]
  rhsNonContracting := [2]
  lhsBatch := [0]
  rhsBatch := [0]
  wf := dot_S8x64x4096_S8x4096x1024_S8x64x1024_2_1_1_2_0_0_wf

class Facts : Prop extends Facts₀ where

variable [Facts]
-- ==== Proof.AttnSpec.lean ====
/-
  Attention pooling by learned queries, as a function on the extended reals.

  For a batch entry with rows x_n (n < N), the score of row n against direction d is s_{n,d} = ∑_c x_{n,c} · W_{d,c} + b_d, the
  logit of query m against row n is ℓ_{m,n} = ∑_d q_{m,d} · s_{n,d}, and the pooled output is the softmax average of the rows,
  out_{m,c} = ∑_n (e^{ℓ_{m,n} − M_m} / ∑_k e^{ℓ_{m,k} − M_m}) · x_{n,c},  M_m = max_n ℓ_{m,n}.

  The same number can be computed tile by tile ("online softmax"): carry a running maximum m, a running denominator l and a
  running numerator acc; a tile with logits L and values X replaces them by
    m' = max m (max L),   l' = e^{m − m'} · l + ∑_j e^{L_j − m'},   acc' = e^{m − m'} · acc + ∑_j e^{L_j − m'} · X_j,
  starting from m = −∞, l = 0, acc = 0, and the output is acc / l after the last tile. This file only states the two forms;
  that they agree for real logits and values is proved separately.
-/
import Idealize.ShloMosaic.PureOps.Ideal
import Idealize.ShloMosaic.Lib.ValueIdx

noncomputable section

namespace Cert.AttnPool

open Idealize.ShloMosaic Idealize.ShloMosaic.ValueIdx

/-- The maximum of finitely many extended reals, taken from −∞. -/
def rowMax {n : ℕ} (L : Fin n → EReal) : EReal := (Finset.univ : Finset (Fin n)).fold max ⊥ L

/-- The softmax average of the values `X` under the logits `L`: each weight is e^{L_j − max L} over the sum of those
    exponentials, and the weights multiply the values one by one before they are summed. -/
def softmaxPool {N : ℕ} (L X : Fin N → EReal) : EReal :=
  ∑ j, Ideal.div (Ideal.exp (L j - rowMax L)) (∑ k, Ideal.exp (L k - rowMax L)) * X j

/-- The running maximum after a tile with logits `L`. -/
def stepM {n : ℕ} (m : EReal) (L : Fin n → EReal) : EReal := max m (rowMax L)

/-- The running denominator after a tile: the old one rescaled to the new maximum, plus the tile's exponentials. -/
def stepL {n : ℕ} (m l : EReal) (L : Fin n → EReal) : EReal :=
  Ideal.exp (m - stepM m L) * l + ∑ j, Ideal.exp (L j - stepM m L)

/-- The running numerator after a tile: the old one rescaled to the new maximum, plus the tile's weighted values. -/
def stepA {n : ℕ} (m acc : EReal) (L X : Fin n → EReal) : EReal :=
  Ideal.exp (m - stepM m L) * acc + ∑ j, Ideal.exp (L j - stepM m L) * X j

/-- Two tiles of online softmax from the empty state (maximum −∞, denominator and numerator zero), then the quotient. -/
def onlinePool {n : ℕ} (L0 L1 X0 X1 : Fin n → EReal) : EReal :=
  Ideal.div (stepA (stepM ⊥ L0) (stepA ⊥ 0 L0 X0) L1 X1) (stepL (stepM ⊥ L0) (stepL ⊥ 0 L0) L1)

/-! ## The kernel's shapes -/

/-- The score of row `n` of batch entry `b` against direction `d`: the row's product with `W`'s row `d`, plus the bias. -/
def score (x : (⟨3, ![8, 4096, 1024]⟩ : Shape).Idx → EReal) (W : (⟨2, ![512, 1024]⟩ : Shape).Idx → EReal)
    (bias : (⟨1, ![512]⟩ : Shape).Idx → EReal) (b : Fin 8) (n : Fin 4096) (d : Fin 512) : EReal :=
  (∑ c : Fin 1024, x (ix3 b n c) * W (ix2 d c)) + bias (ix1 d)

/-- The logit of query `m` against row `n` of batch entry `b`. -/
def logit (x : (⟨3, ![8, 4096, 1024]⟩ : Shape).Idx → EReal) (W : (⟨2, ![512, 1024]⟩ : Shape).Idx → EReal)
    (bias : (⟨1, ![512]⟩ : Shape).Idx → EReal) (q : (⟨2, ![64, 512]⟩ : Shape).Idx → EReal)
    (b : Fin 8) (m : Fin 64) (n : Fin 4096) : EReal :=
  ∑ d : Fin 512, q (ix2 m d) * score x W bias b n d

/-- The pooled output: entry `(b, m, c)` is the softmax average, under query `m`'s logits, of column `c` of batch entry `b`. -/
def pooled (x : (⟨3, ![8, 4096, 1024]⟩ : Shape).Idx → EReal) (W : (⟨2, ![512, 1024]⟩ : Shape).Idx → EReal)
    (bias : (⟨1, ![512]⟩ : Shape).Idx → EReal) (q : (⟨2, ![64, 512]⟩ : Shape).Idx → EReal) :
    (⟨3, ![8, 64, 1024]⟩ : Shape).Idx → EReal :=
  fun i => softmaxPool (fun n : Fin 4096 => logit x W bias q (i 0) (i 1) n) (fun n : Fin 4096 => x (ix3 (i 0) n (i 2)))

/-- Row `j` of tile `t` (tiles of 2048 rows) as a row of the whole array. -/
def tileRow (t : Fin 2) (j : Fin 2048) : Fin 4096 := ⟨t.val * 2048 + j.val, by have := t.isLt; have := j.isLt; omega⟩

/-- The same output computed tile by tile over the two tiles of 2048 rows. -/
def pooledOnline (x : (⟨3, ![8, 4096, 1024]⟩ : Shape).Idx → EReal) (W : (⟨2, ![512, 1024]⟩ : Shape).Idx → EReal)
    (bias : (⟨1, ![512]⟩ : Shape).Idx → EReal) (q : (⟨2, ![64, 512]⟩ : Shape).Idx → EReal) :
    (⟨3, ![8, 64, 1024]⟩ : Shape).Idx → EReal :=
  fun i => onlinePool
    (fun j : Fin 2048 => logit x W bias q (i 0) (i 1) (tileRow 0 j)) (fun j : Fin 2048 => logit x W bias q (i 0) (i 1) (tileRow 1 j))
    (fun j : Fin 2048 => x (ix3 (i 0) (tileRow 0 j) (i 2))) (fun j : Fin 2048 => x (ix3 (i 0) (tileRow 1 j) (i 2)))

end Cert.AttnPool

end
-- ==== Proof.AttnAlgebra.lean ====
/-
  Two tiles of online softmax equal the one-pass softmax average, when every logit and every value is a real number.

  Write the logits as real numbers f_j and the values as real numbers g_j (j < n + n), and let m be the maximum of the f_j,
  m0 the maximum over the first n of them. After the first tile the running maximum is m0 (max(−∞, m0) = m0; the rescale
  factor e^{−∞ − m0} multiplies the zero state, so it contributes nothing), the running denominator is ∑_{j<n} e^{f_j − m0} and
  the running numerator is ∑_{j<n} e^{f_j − m0} g_j. The second tile multiplies both by e^{m0 − m} and adds the second half's
  terms at the maximum m. Since e^{m0 − m} · e^{f_j − m0} = e^{f_j − m}, the denominator becomes S = ∑_{j<n+n} e^{f_j − m} and
  the numerator ∑_{j<n+n} e^{f_j − m} g_j. S is a positive real, so dividing by it is multiplying by 1/S, and
  (∑_j e_j g_j) · (1/S) = ∑_j (e_j · (1/S)) · g_j, which is the one-pass softmax average.

  The identity e^{m0 − m} · e^{a − m0} = e^{a − m} holds for all reals m0 and m; that m0 and m are the maxima is used only to
  match the two sides' exponents, never for an inequality.
-/
import proofs.«118231_j58368605552826_2_alg».proof.Proof.AttnSpec

noncomputable section

namespace Cert.AttnPool

open Idealize.ShloMosaic Idealize.ShloMosaic.ValueIdx

/-! ## Real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of reals is a real. -/
theorem real_sum {ι : Type*} [Fintype ι] (F : ι → EReal) (h : ∀ i, ∃ r : ℝ, F i = (r : EReal)) :
    ∃ r : ℝ, ∑ i, F i = (r : EReal) := by
  choose f hf using h
  refine ⟨∑ i, f i, ?_⟩
  rw [coe_sum]
  exact Finset.sum_congr rfl fun i _ => hf i

/-! ## The maximum -/

/-- Every entry is at most the maximum. -/
theorem le_rowMax {n : ℕ} (L : Fin n → EReal) (j : Fin n) : L j ≤ rowMax L :=
  (Finset.le_fold_max (L j)).mpr (Or.inr ⟨j, Finset.mem_univ j, le_rfl⟩)

/-- The maximum is at most any bound of all the entries. -/
theorem rowMax_le {n : ℕ} (L : Fin n → EReal) {c : EReal} (h : ∀ j, L j ≤ c) : rowMax L ≤ c :=
  (Finset.fold_max_le c).mpr ⟨bot_le, fun j _ => h j⟩

/-- The maximum over n + n entries is the larger of the two halves' maxima. -/
theorem rowMax_add {n : ℕ} (L : Fin (n + n) → EReal) :
    rowMax L = max (rowMax fun j => L (Fin.castAdd n j)) (rowMax fun j => L (Fin.natAdd n j)) := by
  apply le_antisymm
  · apply rowMax_le
    intro j
    refine Fin.addCases (fun i => ?_) (fun i => ?_) j
    · exact le_max_of_le_left (le_rowMax (fun j => L (Fin.castAdd n j)) i)
    · exact le_max_of_le_right (le_rowMax (fun j => L (Fin.natAdd n j)) i)
  · exact max_le (rowMax_le _ fun i => le_rowMax L _) (rowMax_le _ fun i => le_rowMax L _)

/-- The maximum of real entries over a nonempty index set is a real: it is one of the entries. -/
theorem rowMax_real {n : ℕ} (hn : 0 < n) (f : Fin n → ℝ) :
    ∃ m : ℝ, rowMax (fun j => (f j : EReal)) = (m : EReal) := by
  have hself : rowMax (fun j => (f j : EReal)) ≤ (Finset.univ : Finset (Fin n)).fold max ⊥ (fun j => (f j : EReal)) := le_rfl
  rcases (Finset.le_fold_max _).mp hself with h | ⟨j, _, h⟩
  · exact absurd (le_trans (le_rowMax (fun j => (f j : EReal)) ⟨0, hn⟩) h) (by simp)
  · exact ⟨f j, le_antisymm h (le_rowMax (fun j => (f j : EReal)) j)⟩

/-! ## The real identity -/

/-- Rescaling from the maximum m0 to the maximum m: e^{m0 − m} · e^{a − m0} = e^{a − m}. -/
theorem exp_rescale (m0 m a : ℝ) : Real.exp (m0 - m) * Real.exp (a - m0) = Real.exp (a - m) := by
  rw [← Real.exp_add]
  congr 1
  ring

/-- The two-tile denominator is the one-pass denominator. -/
theorem real_den_split {n : ℕ} (f : Fin (n + n) → ℝ) (m0 m : ℝ) :
    Real.exp (m0 - m) * (∑ j, Real.exp (f (Fin.castAdd n j) - m0)) + ∑ j, Real.exp (f (Fin.natAdd n j) - m)
      = ∑ k, Real.exp (f k - m) := by
  rw [Fin.sum_univ_add, Finset.mul_sum]
  congr 1
  exact Finset.sum_congr rfl fun j _ => exp_rescale m0 m _

/-- The two-tile numerator is the one-pass numerator. -/
theorem real_num_split {n : ℕ} (f g : Fin (n + n) → ℝ) (m0 m : ℝ) :
    Real.exp (m0 - m) * (∑ j, Real.exp (f (Fin.castAdd n j) - m0) * g (Fin.castAdd n j))
        + ∑ j, Real.exp (f (Fin.natAdd n j) - m) * g (Fin.natAdd n j)
      = ∑ k, Real.exp (f k - m) * g k := by
  rw [Fin.sum_univ_add, Finset.mul_sum]
  congr 1
  exact Finset.sum_congr rfl fun j _ => by rw [← mul_assoc, exp_rescale]

/-- The two-tile quotient is the one-pass weighted sum. -/
theorem real_pool_split {n : ℕ} (f g : Fin (n + n) → ℝ) (m0 m : ℝ) :
    (Real.exp (m0 - m) * (∑ j, Real.exp (f (Fin.castAdd n j) - m0) * g (Fin.castAdd n j))
        + ∑ j, Real.exp (f (Fin.natAdd n j) - m) * g (Fin.natAdd n j))
      * (1 / (Real.exp (m0 - m) * (∑ j, Real.exp (f (Fin.castAdd n j) - m0)) + ∑ j, Real.exp (f (Fin.natAdd n j) - m)))
      = ∑ j, Real.exp (f j - m) * (1 / ∑ k, Real.exp (f k - m)) * g j := by
  rw [real_den_split, real_num_split, Finset.sum_mul]
  exact Finset.sum_congr rfl fun j _ => by ring

/-! ## The two forms as coercions of real numbers -/

/-- The one-pass softmax average of real values under real logits with maximum m, as a real number. -/
theorem softmaxPool_coe {N : ℕ} (f g : Fin N → ℝ) (m : ℝ) (hm : rowMax (fun j => (f j : EReal)) = (m : EReal))
    (hS : (∑ k, Real.exp (f k - m)) ≠ 0) :
    softmaxPool (fun j => (f j : EReal)) (fun j => (g j : EReal))
      = ((∑ j, Real.exp (f j - m) * (1 / ∑ k, Real.exp (f k - m)) * g j : ℝ) : EReal) := by
  have hden : (∑ k, Ideal.exp ((f k : EReal) - (m : EReal))) = ((∑ k, Real.exp (f k - m) : ℝ) : EReal) := by
    rw [coe_sum]
    refine Finset.sum_congr rfl fun k _ => ?_
    rw [← EReal.coe_sub, Ideal.exp_coe]
  simp only [softmaxPool]
  rw [coe_sum, hm, hden]
  refine Finset.sum_congr rfl fun j _ => ?_
  rw [Ideal.div_coe hS, ← EReal.coe_sub, Ideal.exp_coe, ← EReal.coe_mul, ← EReal.coe_mul]

/-- Two tiles of online softmax over real logits and values, as a real number: m0 is the first tile's maximum and m the
    larger of it and the second tile's. -/
theorem onlinePool_coe {n : ℕ} (f0 f1 g0 g1 : Fin n → ℝ) (m0 m : ℝ)
    (h0 : rowMax (fun j => (f0 j : EReal)) = (m0 : EReal))
    (h1 : max (m0 : EReal) (rowMax fun j => (f1 j : EReal)) = (m : EReal))
    (hD : Real.exp (m0 - m) * (∑ j, Real.exp (f0 j - m0)) + ∑ j, Real.exp (f1 j - m) ≠ 0) :
    onlinePool (fun j => (f0 j : EReal)) (fun j => (f1 j : EReal)) (fun j => (g0 j : EReal)) (fun j => (g1 j : EReal))
      = (((Real.exp (m0 - m) * (∑ j, Real.exp (f0 j - m0) * g0 j) + ∑ j, Real.exp (f1 j - m) * g1 j)
          * (1 / (Real.exp (m0 - m) * (∑ j, Real.exp (f0 j - m0)) + ∑ j, Real.exp (f1 j - m))) : ℝ) : EReal) := by
  have hM0 : stepM ⊥ (fun j => (f0 j : EReal)) = (m0 : EReal) := by
    rw [stepM, h0]
    exact max_eq_right bot_le
  have hM1 : stepM (m0 : EReal) (fun j => (f1 j : EReal)) = (m : EReal) := h1
  have hL0 : stepL ⊥ 0 (fun j => (f0 j : EReal)) = ((∑ j, Real.exp (f0 j - m0) : ℝ) : EReal) := by
    rw [stepL, hM0, mul_zero, zero_add, coe_sum]
    refine Finset.sum_congr rfl fun j _ => ?_
    rw [← EReal.coe_sub, Ideal.exp_coe]
  have hA0 : stepA ⊥ 0 (fun j => (f0 j : EReal)) (fun j => (g0 j : EReal))
      = ((∑ j, Real.exp (f0 j - m0) * g0 j : ℝ) : EReal) := by
    rw [stepA, hM0, mul_zero, zero_add, coe_sum]
    refine Finset.sum_congr rfl fun j _ => ?_
    rw [← EReal.coe_sub, Ideal.exp_coe, ← EReal.coe_mul]
  have hL1 : stepL (m0 : EReal) ((∑ j, Real.exp (f0 j - m0) : ℝ) : EReal) (fun j => (f1 j : EReal))
      = ((Real.exp (m0 - m) * (∑ j, Real.exp (f0 j - m0)) + ∑ j, Real.exp (f1 j - m) : ℝ) : EReal) := by
    have hs : (∑ j, Ideal.exp ((f1 j : EReal) - (m : EReal))) = ∑ j, ((Real.exp (f1 j - m) : ℝ) : EReal) :=
      Finset.sum_congr rfl fun j _ => by rw [← EReal.coe_sub, Ideal.exp_coe]
    rw [stepL, hM1, hs, ← EReal.coe_sub, Ideal.exp_coe, ← EReal.coe_mul, EReal.coe_add, coe_sum]
  have hA1 : stepA (m0 : EReal) ((∑ j, Real.exp (f0 j - m0) * g0 j : ℝ) : EReal) (fun j => (f1 j : EReal))
        (fun j => (g1 j : EReal))
      = ((Real.exp (m0 - m) * (∑ j, Real.exp (f0 j - m0) * g0 j) + ∑ j, Real.exp (f1 j - m) * g1 j : ℝ) : EReal) := by
    have hs : (∑ j, Ideal.exp ((f1 j : EReal) - (m : EReal)) * (g1 j : EReal))
        = ∑ j, ((Real.exp (f1 j - m) * g1 j : ℝ) : EReal) :=
      Finset.sum_congr rfl fun j _ => by rw [← EReal.coe_sub, Ideal.exp_coe, ← EReal.coe_mul]
    rw [stepA, hM1, hs, ← EReal.coe_sub, Ideal.exp_coe, ← EReal.coe_mul, EReal.coe_add, coe_sum]
  rw [onlinePool, hM0, hL0, hA0, hL1, hA1, Ideal.div_coe hD, ← EReal.coe_mul]

/-! ## The two forms agree -/

/-- Two tiles of online softmax equal the one-pass softmax average when every logit and value is a real number. -/
theorem onlinePool_eq_softmaxPool {n : ℕ} (hn : 0 < n) (L X : Fin (n + n) → EReal)
    (hL : ∀ j, ∃ r : ℝ, L j = (r : EReal)) (hX : ∀ j, ∃ r : ℝ, X j = (r : EReal)) :
    onlinePool (fun j => L (Fin.castAdd n j)) (fun j => L (Fin.natAdd n j)) (fun j => X (Fin.castAdd n j))
        (fun j => X (Fin.natAdd n j))
      = softmaxPool L X := by
  choose f hf using hL
  choose g hg using hX
  obtain rfl : L = fun j => (f j : EReal) := funext hf
  obtain rfl : X = fun j => (g j : EReal) := funext hg
  obtain ⟨m0, h0⟩ := rowMax_real hn (fun j => f (Fin.castAdd n j))
  obtain ⟨m1, h1⟩ := rowMax_real hn (fun j => f (Fin.natAdd n j))
  obtain ⟨m, hm⟩ : ∃ m : ℝ, max (m0 : EReal) (m1 : EReal) = (m : EReal) := by
    rcases max_choice (m0 : EReal) (m1 : EReal) with h | h
    · exact ⟨m0, h⟩
    · exact ⟨m1, h⟩
  have hM : rowMax (fun j => (f j : EReal)) = (m : EReal) := by
    rw [rowMax_add, h0, h1, hm]
  have hpos : 0 < ∑ k, Real.exp (f k - m) :=
    Finset.sum_pos (fun k _ => Real.exp_pos _) ⟨⟨0, by omega⟩, Finset.mem_univ _⟩
  have hD : Real.exp (m0 - m) * (∑ j, Real.exp (f (Fin.castAdd n j) - m0)) + ∑ j, Real.exp (f (Fin.natAdd n j) - m) ≠ 0 := by
    rw [real_den_split]
    exact hpos.ne'
  rw [softmaxPool_coe f g m hM hpos.ne',
    onlinePool_coe (fun j => f (Fin.castAdd n j)) (fun j => f (Fin.natAdd n j)) (fun j => g (Fin.castAdd n j))
      (fun j => g (Fin.natAdd n j)) m0 m h0 (by rw [h1]; exact hm) hD,
    real_pool_split]

/-! ## The kernel's shapes -/

/-- Row j of the first tile is row j of the whole array. -/
theorem tileRow_zero (j : Fin 2048) : tileRow 0 j = Fin.castAdd 2048 j := by
  apply Fin.ext
  simp [tileRow]

/-- Row j of the second tile is row 2048 + j of the whole array. -/
theorem tileRow_one (j : Fin 2048) : tileRow 1 j = Fin.natAdd 2048 j := by
  apply Fin.ext
  simp [tileRow]
  omega

/-- A logit of real inputs is a real: a finite sum of products of a real with a finite sum of real products plus a real. -/
theorem logit_real (x : (⟨3, ![8, 4096, 1024]⟩ : Shape).Idx → EReal) (W : (⟨2, ![512, 1024]⟩ : Shape).Idx → EReal)
    (bias : (⟨1, ![512]⟩ : Shape).Idx → EReal) (q : (⟨2, ![64, 512]⟩ : Shape).Idx → EReal)
    (hx : ∀ i, ∃ r : ℝ, x i = (r : EReal)) (hW : ∀ i, ∃ r : ℝ, W i = (r : EReal))
    (hb : ∀ i, ∃ r : ℝ, bias i = (r : EReal)) (hq : ∀ i, ∃ r : ℝ, q i = (r : EReal))
    (b : Fin 8) (m : Fin 64) (n : Fin 4096) : ∃ r : ℝ, logit x W bias q b m n = (r : EReal) := by
  unfold logit score
  exact real_sum _ fun d => real_mul (hq _) (real_add (real_sum _ fun c => real_mul (hx _) (hW _)) (hb _))

/-- For real inputs the tile-by-tile output is the one-pass output. -/
theorem pooledOnline_eq_pooled (x : (⟨3, ![8, 4096, 1024]⟩ : Shape).Idx → EReal)
    (W : (⟨2, ![512, 1024]⟩ : Shape).Idx → EReal) (bias : (⟨1, ![512]⟩ : Shape).Idx → EReal)
    (q : (⟨2, ![64, 512]⟩ : Shape).Idx → EReal)
    (hx : ∀ i, ∃ r : ℝ, x i = (r : EReal)) (hW : ∀ i, ∃ r : ℝ, W i = (r : EReal))
    (hb : ∀ i, ∃ r : ℝ, bias i = (r : EReal)) (hq : ∀ i, ∃ r : ℝ, q i = (r : EReal)) :
    pooledOnline x W bias q = pooled x W bias q := by
  funext i
  have h := onlinePool_eq_softmaxPool (n := 2048) (by norm_num)
    (fun n : Fin (2048 + 2048) => logit x W bias q (i 0) (i 1) n)
    (fun n : Fin (2048 + 2048) => x (ix3 (i 0) n (i 2)))
    (fun j => logit_real x W bias q hx hW hb hq _ _ _) (fun j => hx _)
  simp only [pooledOnline, pooled, tileRow_zero, tileRow_one]
  exact h

end Cert.AttnPool

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefPooled.lean ====
/-
  The reference program computes the attention pooling of the specification.

  Read one operation at a time, at an index given by its coordinates:
  the first contraction plus the broadcast bias is the score s_{n,d} = ∑_c x_{n,c} · W_{d,c} + b_d; the second contraction,
  transposed, is the logit ℓ_{m,n} = ∑_d q_{m,d} · s_{n,d}; the maximum over the last axis from −∞, joined once more with −∞,
  is the row maximum M_m; then e^{ℓ_{m,n} − M_m}, its sum over n (from the initial value 0), the quotient, and the last
  contraction over n against the rows x_{n,c}. Stage by stage these are the terms of `softmaxPool`, in the same operand order,
  so no law of arithmetic beyond 0 + a = a and max −∞ a = a is used.
-/
import proofs.«118231_j58368605552826_2_alg».proof.Proof.Gen.ReferenceIdeal.Read
import proofs.«118231_j58368605552826_2_alg».proof.Proof.AttnSpec
import proofs.«118231_j58368605552826_2_alg».proof.Proof.LibLastAxisMax

noncomputable section

namespace Cert.AttnPool.Ref

open Cert.ReferenceIdeal Cert.ReferenceIdeal.Gen Cert.ReferenceIdeal.Read Idealize.ShloMosaic Idealize.ShloMosaic.ValueIdx

variable (x0 : (⟨S8x4096x1024, .f32⟩ : BufTy).Contents (Elt Ideal)) (x1 : (⟨S512x1024, .f32⟩ : BufTy).Contents (Elt Ideal))
  (x2 : (⟨S512, .f32⟩ : BufTy).Contents (Elt Ideal)) (x3 : (⟨S64x512, .f32⟩ : BufTy).Contents (Elt Ideal))

/-- The first contraction plus the broadcast bias, at (b, n, d), is the score of row n against direction d. -/
theorem v3_at (b : Fin 8) (n : Fin 4096) (d : Fin 512) :
    val_main_v3 (F := Ideal) x0 x1 x2 (ix3 b n d) = score x0 x1 x2 b n d := by
  have el : ∀ k : Fin 1024, lidx_main_v0 (ix3 b n d) k = ix3 b n k := fun k =>
    funext fun a => Fin.ext (by match a with | ⟨0, _⟩ => rfl | ⟨1, _⟩ => rfl | ⟨2, _⟩ => rfl)
  have er : ∀ k : Fin 1024, ridx_main_v0 (ix3 b n d) k = ix2 d k := fun k =>
    funext fun a => Fin.ext (by match a with | ⟨0, _⟩ => rfl | ⟨1, _⟩ => rfl)
  have eb : idx_main_v1 (idx_main_v2 (ix3 b n d)) = ix1 d :=
    funext fun a => Fin.ext (by match a with | ⟨0, _⟩ => rfl)
  rw [val_main_v3_apply, val_main_v0_apply, val_main_v2_apply, val_main_v1_apply, eb]
  simp only [el, er, Ideal.addf_def]
  rfl

/-- The second contraction, transposed to [8, 64, 4096], at (b, m, n), is the logit of query m against row n. -/
theorem v5_at (b : Fin 8) (m : Fin 64) (n : Fin 4096) :
    val_main_v5 (F := Ideal) x0 x1 x2 x3 (ix3 b m n) = logit x0 x1 x2 x3 b m n := by
  have el : ∀ k : Fin 512, lidx_main_v4 (idx_main_v5 (ix3 b m n)) k = ix2 m k := fun k =>
    funext fun a => Fin.ext (by match a with | ⟨0, _⟩ => rfl | ⟨1, _⟩ => rfl)
  have er : ∀ k : Fin 512, ridx_main_v4 (idx_main_v5 (ix3 b m n)) k = ix3 b n k := fun k =>
    funext fun a => Fin.ext (by match a with | ⟨0, _⟩ => rfl | ⟨1, _⟩ => rfl | ⟨2, _⟩ => rfl)
  rw [val_main_v5_apply, val_main_v4_apply]
  simp only [el, er, v3_at]
  rfl

/-- The pattern 0xFF800000 is −∞. -/
theorem negInf_eq_bot : Ideal.ofBits .f32 0xFF800000#32 = (⊥ : EReal) := by simp [Ideal.ofBits, Ideal.ieee]

/-- The maximum over the last axis from −∞, joined once more with −∞, at (b, m), is the maximum of query m's logits. -/
theorem v8_at (b : Fin 8) (m : Fin 64) :
    val_main_v8 (F := Ideal) x0 x1 x2 x3 (ix2 b m) = rowMax (fun n : Fin 4096 => logit x0 x1 x2 x3 b m n) := by
  have h : S8x64x4096.Reduces [2] S8x64 := by decide
  have e6 : val_main_v6 (F := Ideal) x0 x1 x2 x3 (ix2 b m)
      = (Finset.univ : Finset (Fin 4096)).fold max ⊥ (fun n => logit x0 x1 x2 x3 b m n) := by
    unfold val_main_v6
    refine (Cert.LibLastAxisMax.hostLastMax3_apply (val_main_v5 (F := Ideal) x0 x1 x2 x3) (val_main_cst (F := Ideal))
      reducesTo_S8x64x4096_S8x64_d2 h h_S_ b m).trans ?_
    rw [val_main_cst_apply, Ideal.ofBits_def, negInf_eq_bot]
    simp only [v5_at]
  rw [val_main_v8_apply, val_main_v7_apply, val_main_cst_0_apply, e6, Ideal.ofBits_def, negInf_eq_bot, Ideal.maximumf_def,
    max_eq_right bot_le]
  rfl

/-- The exponential stage, at (b, m, n), is e^{ℓ_{m,n} − M_m}. -/
theorem v12_at (b : Fin 8) (m : Fin 64) (n : Fin 4096) :
    val_main_v12 (F := Ideal) x0 x1 x2 x3 (ix3 b m n)
      = Ideal.exp (logit x0 x1 x2 x3 b m n - rowMax (fun k : Fin 4096 => logit x0 x1 x2 x3 b m k)) := by
  have e : idx_main_v9 (idx_main_v10 (ix3 b m n)) = ix2 b m :=
    funext fun a => Fin.ext (by match a with | ⟨0, _⟩ => rfl | ⟨1, _⟩ => rfl)
  rw [val_main_v12_apply, val_main_v11_apply, val_main_v10_apply, val_main_v9_apply, e, v5_at, v8_at,
    Ideal.hostUnary_exp_def, Ideal.subf_def]

/-- The sum over the last axis from 0, at (b, m), is the sum of query m's exponentials. -/
theorem v13_at (b : Fin 8) (m : Fin 64) :
    val_main_v13 (F := Ideal) x0 x1 x2 x3 (ix2 b m)
      = ∑ k : Fin 4096, Ideal.exp (logit x0 x1 x2 x3 b m k - rowMax (fun k : Fin 4096 => logit x0 x1 x2 x3 b m k)) := by
  have e : ∀ k : Fin 4096, idx_main_v13 (ix2 b m) k = ix3 b m k := fun k =>
    funext fun a => Fin.ext (by match a with | ⟨0, _⟩ => rfl | ⟨1, _⟩ => rfl | ⟨2, _⟩ => rfl)
  rw [val_main_v13_apply, val_main_cst_1_apply, Ideal.ofBits_def, Ideal.ofBits_zero_f32, zero_add]
  simp only [e, v12_at]

/-- The quotient stage, at (b, m, n), is the softmax weight of row n under query m. -/
theorem v16_at (b : Fin 8) (m : Fin 64) (n : Fin 4096) :
    val_main_v16 (F := Ideal) x0 x1 x2 x3 (ix3 b m n)
      = Ideal.div (Ideal.exp (logit x0 x1 x2 x3 b m n - rowMax (fun k : Fin 4096 => logit x0 x1 x2 x3 b m k)))
          (∑ k : Fin 4096, Ideal.exp (logit x0 x1 x2 x3 b m k - rowMax (fun k : Fin 4096 => logit x0 x1 x2 x3 b m k))) := by
  have e : idx_main_v14 (idx_main_v15 (ix3 b m n)) = ix2 b m :=
    funext fun a => Fin.ext (by match a with | ⟨0, _⟩ => rfl | ⟨1, _⟩ => rfl)
  rw [val_main_v16_apply, val_main_v15_apply, val_main_v14_apply, e, v12_at, v13_at, Ideal.hostDivf_def]

/-- The reference's result is the pooled output of the specification. -/
theorem ref_eq_pooled : val_main_v17 (F := Ideal) x0 x1 x2 x3 = pooled x0 x1 x2 x3 := by
  funext i
  obtain ⟨b, m, c, rfl⟩ : ∃ (b : Fin 8) (m : Fin 64) (c : Fin 1024), i = ix3 b m c := ⟨i 0, i 1, i 2, eq_ix3 i⟩
  have el : ∀ k : Fin 4096, lidx_main_v17 (ix3 b m c) k = ix3 b m k := fun k =>
    funext fun a => Fin.ext (by match a with | ⟨0, _⟩ => rfl | ⟨1, _⟩ => rfl | ⟨2, _⟩ => rfl)
  have er : ∀ k : Fin 4096, ridx_main_v17 (ix3 b m c) k = ix3 b k c := fun k =>
    funext fun a => Fin.ext (by match a with | ⟨0, _⟩ => rfl | ⟨1, _⟩ => rfl | ⟨2, _⟩ => rfl)
  rw [val_main_v17_apply]
  simp only [el, er, v16_at]
  rfl

end Cert.AttnPool.Ref

end
-- ==== Proof.FiniteInputs.lean ====
/-
  Finite inputs are real.

  The precondition asks, of each of the four argument arrays, that every entry's absolute value lie strictly below +∞,
  and takes the conjunction of the four. On the extended reals |a| = max a (−a) is +∞ exactly at the two infinities, so an
  entry that passes is a real number. This file reads the conjunction apart and states that conclusion for every entry of
  every array.
-/
import proofs.«118231_j58368605552826_2_alg».proof.Pre_finite_inputs
import Idealize.ShloMosaic.Lib.ReduceAll
import Idealize.ShloMosaic.Lib.ValueIdx
import Idealize.ShloMosaic.PureOps.Ideal.Laws

noncomputable section

namespace Cert.AttnPool.Finite

open Idealize.ShloMosaic Idealize.ShloMosaic.ValueIdx Cert.Pre_finite_inputs

/-- The scalar shape has one index. -/
theorem scalarIdx_subsingleton : Subsingleton S_.Idx := ⟨fun _ _ => funext fun d => d.elim0⟩

attribute [local instance] scalarIdx_subsingleton

/-- The pattern 0x7F800000 is +∞. -/
theorem posInf_eq_top : Ideal.ofBits .f32 0x7F800000#32 = (⊤ : EReal) := by simp [Ideal.ofBits, Ideal.ieee]

/-- An extended real whose absolute value compares strictly below +∞ is a real number: at −∞ and at +∞ the absolute
    value is +∞ itself. -/
theorem real_of_abs_lt_posInf (a : EReal)
    (h : Ideal.cmp .olt (max a (-a)) (Ideal.ofBits .f32 0x7F800000#32) = 1#1) : ∃ r : ℝ, a = (r : EReal) := by
  rw [posInf_eq_top] at h
  have hlt : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  induction a using EReal.rec with
  | bot => exact absurd hlt (by simp)
  | coe r => exact ⟨r, rfl⟩
  | top => exact absurd hlt (by simp)

/-- One array's test: if the conjunction over all entries of "|x_i| < +∞" holds, every entry is real. -/
theorem all_real {s : Shape} {axes : List (Fin s.rank)} (x : FVec Ideal s .f32)
    (bc : S_.BroadcastsInDim s (![] : Fin 0 → Fin s.rank)) (h' : s.ReducesTo axes S_) (hu : 0 < S_.numel)
    (e : Host.reduce IntOp.andi
        (cmpf .olt (Host.absf x) (broadcastInDim s ![] bc (constant (F := Ideal) S_ .f32 0x7F800000#32)))
        (constantI S_ 1 1#1) h' hu ix0 = 1#1) (i : s.Idx) : ∃ r : ℝ, x i = (r : EReal) :=
  real_of_abs_lt_posInf (x i) (Host.reduce_andi_all _ _ h' hu ix0 e i)

/-- Under the precondition every entry of each of the four argument arrays is a real number. -/
theorem real_of_pre [Facts] (x : FVec Ideal S8x4096x1024 .f32) (W : FVec Ideal S512x1024 .f32) (bias : FVec Ideal S512 .f32)
    (q : FVec Ideal S64x512 .f32) (h : fn (F := Ideal) x W bias q = (fun _ => 1#1)) :
    (∀ i, ∃ r : ℝ, x i = (r : EReal)) ∧ (∀ i, ∃ r : ℝ, W i = (r : EReal)) ∧ (∀ i, ∃ r : ℝ, bias i = (r : EReal))
      ∧ (∀ i, ∃ r : ℝ, q i = (r : EReal)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real x _ _ _ h1, all_real W _ _ _ h2, all_real bias _ _ _ h3, all_real q _ _ _ h4⟩

end Cert.AttnPool.Finite

end
-- ==== Proof.KernelPieces.lean ====
/-
  What one run of the kernel body leaves behind, as pure functions of what it loaded.

  The body runs in two ways. At the first row tile of a batch entry it first resets its three scratch buffers (running
  maximum to −∞, running denominator and running numerator to 0) and then updates them from the tile; at the second (last)
  tile it updates them from what the first tile left and stores the quotient numerator / denominator into the output block.
  Each lemma below reads one buffer's final contents back as the body's arithmetic applied to the loaded blocks:
  the last covering store decides the contents, and a load that follows a covering store reads that store's value.
-/
import proofs.«118231_j58368605552826_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- After the first tile of a batch entry the running-maximum scratch holds the maximum of the initial value (−∞) and
    the tile's row maxima: the body's last store into it, over the value its first store put there. -/
theorem sA0 (c : Dev nD) (i : grid0.Coords) (arg2 : Memref sig .tc .vmem S1x2048x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S64x512 .bf16) (harg5 : arg5.IsWhole) (arg6 : Memref sig .tc .vmem S1x64x1024 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1024 .f32) (harg9 : arg9.IsWhole) (hc0 : cond0_0 i) (hc1 : ¬cond0_1 i) (x0 : Vec F S1x2048x1024 .f32) (x1 : Vec F S512x1024 .bf16) (x2 : Vec F S1x512 .f32) (x3 : Vec F S64x512 .bf16) :
    sout0_A_0 c i arg2 harg2 arg3 harg3 arg4 harg4 arg5 harg5 arg6 harg6 arg7 harg7 arg8 harg8 arg9 harg9 hc0 hc1 x0 x1 x2 x3 = k0_pay2 (k0_pay9 x0 x1 x2 x3 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S64x1) hz2]
  simp only [View.readAt_eq_ld, harg2.read_unread, harg3.read_unread, harg4.read_unread, harg5.read_unread, harg6.read_unread, harg7.read_unread, harg8.read_unread, harg9.read_unread,
    View.ld_unit_zero (S := S1x2048x1024) hz3, View.ld_unit_zero (S := S512x1024) hz2, View.ld_unit_zero (S := S1x512) hz2, View.ld_unit_zero (S := S64x512) hz2,
    View.ld_unit_zero (S := S64x1) hz2, View.ld_unit_zero (S := S64x1024) hz2, View.ld_unit_zero (S := S1x64x1024) hz3,
    View.readCov_unit_zero (S := S64x1) _ hz2, View.readCov_unit_zero (S := S64x1024) _ hz2]

/-- After the first tile the running-denominator scratch holds the update of the reset values (−∞, 0). -/
theorem sA1 (c : Dev nD) (i : grid0.Coords) (arg2 : Memref sig .tc .vmem S1x2048x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S64x512 .bf16) (harg5 : arg5.IsWhole) (arg6 : Memref sig .tc .vmem S1x64x1024 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1024 .f32) (harg9 : arg9.IsWhole) (hc0 : cond0_0 i) (hc1 : ¬cond0_1 i) (x0 : Vec F S1x2048x1024 .f32) (x1 : Vec F S512x1024 .bf16) (x2 : Vec F S1x512 .f32) (x3 : Vec F S64x512 .bf16) :
    sout0_A_1 c i arg2 harg2 arg3 harg3 arg4 harg4 arg5 harg5 arg6 harg6 arg7 harg7 arg8 harg8 arg9 harg9 hc0 hc1 x0 x1 x2 x3 = k0_pay12 x0 x1 x2 x3 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S64x1) hz2]
  simp only [View.readAt_eq_ld, harg2.read_unread, harg3.read_unread, harg4.read_unread, harg5.read_unread, harg6.read_unread, harg7.read_unread, harg8.read_unread, harg9.read_unread,
    View.ld_unit_zero (S := S1x2048x1024) hz3, View.ld_unit_zero (S := S512x1024) hz2, View.ld_unit_zero (S := S1x512) hz2, View.ld_unit_zero (S := S64x512) hz2,
    View.ld_unit_zero (S := S64x1) hz2, View.ld_unit_zero (S := S64x1024) hz2, View.ld_unit_zero (S := S1x64x1024) hz3,
    View.readCov_unit_zero (S := S64x1) _ hz2, View.readCov_unit_zero (S := S64x1024) _ hz2]

/-- After the first tile the running-numerator scratch holds the update of the reset values (−∞, 0). -/
theorem sA2 (c : Dev nD) (i : grid0.Coords) (arg2 : Memref sig .tc .vmem S1x2048x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S64x512 .bf16) (harg5 : arg5.IsWhole) (arg6 : Memref sig .tc .vmem S1x64x1024 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1024 .f32) (harg9 : arg9.IsWhole) (hc0 : cond0_0 i) (hc1 : ¬cond0_1 i) (x0 : Vec F S1x2048x1024 .f32) (x1 : Vec F S512x1024 .bf16) (x2 : Vec F S1x512 .f32) (x3 : Vec F S64x512 .bf16) :
    sout0_A_2 c i arg2 harg2 arg3 harg3 arg4 harg4 arg5 harg5 arg6 harg6 arg7 harg7 arg8 harg8 arg9 harg9 hc0 hc1 x0 x1 x2 x3
      = k0_pay1 (k0_pay7 x0) (k0_pay10 x0 x1 x2 x3 k0_pay4) (k0_pay13 x0 x1 x2 x3 k0_pay4) k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S64x1024) hz2]
  simp only [View.readAt_eq_ld, harg2.read_unread, harg3.read_unread, harg4.read_unread, harg5.read_unread, harg6.read_unread, harg7.read_unread, harg8.read_unread, harg9.read_unread,
    View.ld_unit_zero (S := S1x2048x1024) hz3, View.ld_unit_zero (S := S512x1024) hz2, View.ld_unit_zero (S := S1x512) hz2, View.ld_unit_zero (S := S64x512) hz2,
    View.ld_unit_zero (S := S64x1) hz2, View.ld_unit_zero (S := S64x1024) hz2, View.ld_unit_zero (S := S1x64x1024) hz3,
    View.readCov_unit_zero (S := S64x1) _ hz2, View.readCov_unit_zero (S := S64x1024) _ hz2]

/-- At the last tile the output block receives the quotient of the updated numerator by the updated denominator, both
    updated from what the scratch held when the body started (`xs0`, `xs1`, `xs2`). -/
theorem oB4 (c : Dev nD) (i : grid0.Coords) (arg2 : Memref sig .tc .vmem S1x2048x1024 .f32) (harg2 : arg2.IsWhole) (arg3 : Memref sig .tc .vmem S512x1024 .bf16) (harg3 : arg3.IsWhole) (arg4 : Memref sig .tc .vmem S1x512 .f32) (harg4 : arg4.IsWhole) (arg5 : Memref sig .tc .vmem S64x512 .bf16) (harg5 : arg5.IsWhole) (arg6 : Memref sig .tc .vmem S1x64x1024 .f32) (harg6 : arg6.IsWhole) (arg7 : Memref sig .tc .vmem S64x1 .f32) (harg7 : arg7.IsWhole) (arg8 : Memref sig .tc .vmem S64x1 .f32) (harg8 : arg8.IsWhole) (arg9 : Memref sig .tc .vmem S64x1024 .f32) (harg9 : arg9.IsWhole) (hc0 : ¬cond0_0 i) (hc1 : cond0_1 i) (x0 : Vec F S1x2048x1024 .f32) (x1 : Vec F S512x1024 .bf16) (x2 : Vec F S1x512 .f32) (x3 : Vec F S64x512 .bf16) (xs0 : Vec F S64x1 .f32) (xs1 : Vec F S64x1 .f32) (xs2 : Vec F S64x1024 .f32) :
    out0_B_4 c i arg2 harg2 arg3 harg3 arg4 harg4 arg5 harg5 arg6 harg6 arg7 harg7 arg8 harg8 arg9 harg9 hc0 hc1 x0 x1 x2 x3 xs0 xs1 xs2
      = k0_pay3 (k0_pay1 (k0_pay7 x0) (k0_pay10 x0 x1 x2 x3 xs0) (k0_pay13 x0 x1 x2 x3 xs0) xs2) (k0_pay12 x0 x1 x2 x3 xs0 xs1) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1x2048x1024) hz3, View.ld_unit_zero (S := S512x1024) hz2, View.ld_unit_zero (S := S1x512) hz2, View.ld_unit_zero (S := S64x512) hz2,
    View.ld_unit_zero (S := S64x1) hz2, View.ld_unit_zero (S := S64x1024) hz2, View.ld_unit_zero (S := S1x64x1024) hz3,
    View.readCov_unit_zero (S := S64x1) _ hz2, View.readCov_unit_zero (S := S64x1024) _ hz2]

end Cert.KernelIdeal.Pieces
end
-- ==== Proof.KernelDots.lean ====
/-
  The kernel's three matrix products, read at an index at the ideal values.

  Each product contracts one axis of each operand into a zero accumulator, so its entry at an output index is the sum, over
  the contracted coordinate k, of the left operand's entry times the right operand's entry:
    rows × weights:    (x · Wᵀ)(n, d) = ∑_k x(n, k) · W(d, k)      (both operands contracted along their columns),
    queries × scores:  (q · sᵀ)(p, j) = ∑_k q(p, k) · s(j, k)      (the same pattern),
    weights × rows:    (e · x)(p, c)  = ∑_k e(p, k) · x(k, c)      (the plain pattern).
  The contraction index set of each has one axis; it is identified with Fin K and each operand index is computed coordinate
  by coordinate.
-/
import proofs.«118231_j58368605552826_2_alg».proof.Proof.Gen.KernelIdeal
import Idealize.ShloMosaic.PureOps.Ideal.Laws
import Idealize.ShloMosaic.Lib.ValueIdx

noncomputable section

namespace Cert.KernelIdeal.Dots

open Cert.KernelIdeal Cert.KernelIdeal.Gen Idealize.ShloMosaic Idealize.ShloMosaic.ValueIdx

/-! ## rows × weights: [2048, 1024] with [512, 1024] to [2048, 512] -/

theorem xw_l0 (i : S2048x512.Idx) (q : dot_S2048x1024_S512x1024_S2048x512_1_1_0_0_n_n.contr.Idx) :
    (dot_S2048x1024_S512x1024_S2048x512_1_1_0_0_n_n.lhsIdx i q 0).val = (i 0).val := by
  unfold DotDims.lhsIdx
  rw [dif_neg (show ¬(0 : Fin S2048x1024.rank) ∈ dot_S2048x1024_S512x1024_S2048x512_1_1_0_0_n_n.lhsBatch by decide),
    dif_pos (show (0 : Fin S2048x1024.rank) ∈ dot_S2048x1024_S512x1024_S2048x512_1_1_0_0_n_n.lhsNonContracting by decide)]
  rfl
theorem xw_r0 (i : S2048x512.Idx) (q : dot_S2048x1024_S512x1024_S2048x512_1_1_0_0_n_n.contr.Idx) :
    (dot_S2048x1024_S512x1024_S2048x512_1_1_0_0_n_n.rhsIdx i q 0).val = (i 1).val := by
  unfold DotDims.rhsIdx
  rw [dif_neg (show ¬(0 : Fin S512x1024.rank) ∈ dot_S2048x1024_S512x1024_S2048x512_1_1_0_0_n_n.rhsBatch by decide),
    dif_pos (show (0 : Fin S512x1024.rank) ∈ dot_S2048x1024_S512x1024_S2048x512_1_1_0_0_n_n.rhsNonContracting by decide)]
  rfl

/-- Entry (n, d) of rows × weights is ∑_k l(n, k) · r(d, k). -/
theorem xw_apply {φ₁ φ₂ : FTy} (l : FVec Ideal S2048x1024 φ₁) (r : FVec Ideal S512x1024 φ₂) (n : Fin 2048) (d : Fin 512) :
    matmul (F := Ideal) dot_S2048x1024_S512x1024_S2048x512_1_1_0_0_n_n none l r (constant (F := Ideal) S2048x512 .f32 0x00000000#32) (ix2 n d)
      = ∑ k : Fin 1024, l (ix2 n k) * r (ix2 d k) := by
  simp only [matmul]
  rw [Ideal.matmul_constant_zero_apply, ← Equiv.sum_comp (contrEquiv1 dot_S2048x1024_S512x1024_S2048x512_1_1_0_0_n_n 1024 rfl rfl).symm]
  refine Finset.sum_congr rfl fun k _ => ?_
  have hk := contrEquiv1_symm_val dot_S2048x1024_S512x1024_S2048x512_1_1_0_0_n_n 1024 rfl rfl k
  have el : dot_S2048x1024_S512x1024_S2048x512_1_1_0_0_n_n.lhsIdx (ix2 n d) ((contrEquiv1 dot_S2048x1024_S512x1024_S2048x512_1_1_0_0_n_n 1024 rfl rfl).symm k) = ix2 n k :=
    funext fun a => Fin.ext (by
      match a with
      | ⟨0, _⟩ => exact xw_l0 _ _
      | ⟨1, _⟩ => exact (dot_S2048x1024_S512x1024_S2048x512_1_1_0_0_n_n.lhsIdx_val_of_single rfl _ _).trans hk)
  have er : dot_S2048x1024_S512x1024_S2048x512_1_1_0_0_n_n.rhsIdx (ix2 n d) ((contrEquiv1 dot_S2048x1024_S512x1024_S2048x512_1_1_0_0_n_n 1024 rfl rfl).symm k) = ix2 d k :=
    funext fun a => Fin.ext (by
      match a with
      | ⟨0, _⟩ => exact xw_r0 _ _
      | ⟨1, _⟩ => exact (dot_S2048x1024_S512x1024_S2048x512_1_1_0_0_n_n.rhsIdx_val_of_single rfl _ _).trans hk)
  rw [el, er]

/-! ## queries × scores: [64, 512] with [2048, 512] to [64, 2048] -/

theorem qs_l0 (i : S64x2048.Idx) (q : dot_S64x512_S2048x512_S64x2048_1_1_0_0_n_n.contr.Idx) :
    (dot_S64x512_S2048x512_S64x2048_1_1_0_0_n_n.lhsIdx i q 0).val = (i 0).val := by
  unfold DotDims.lhsIdx
  rw [dif_neg (show ¬(0 : Fin S64x512.rank) ∈ dot_S64x512_S2048x512_S64x2048_1_1_0_0_n_n.lhsBatch by decide),
    dif_pos (show (0 : Fin S64x512.rank) ∈ dot_S64x512_S2048x512_S64x2048_1_1_0_0_n_n.lhsNonContracting by decide)]
  rfl
theorem qs_r0 (i : S64x2048.Idx) (q : dot_S64x512_S2048x512_S64x2048_1_1_0_0_n_n.contr.Idx) :
    (dot_S64x512_S2048x512_S64x2048_1_1_0_0_n_n.rhsIdx i q 0).val = (i 1).val := by
  unfold DotDims.rhsIdx
  rw [dif_neg (show ¬(0 : Fin S2048x512.rank) ∈ dot_S64x512_S2048x512_S64x2048_1_1_0_0_n_n.rhsBatch by decide),
    dif_pos (show (0 : Fin S2048x512.rank) ∈ dot_S64x512_S2048x512_S64x2048_1_1_0_0_n_n.rhsNonContracting by decide)]
  rfl

/-- Entry (p, j) of queries × scores is ∑_k l(p, k) · r(j, k). -/
theorem qs_apply {φ₁ φ₂ : FTy} (l : FVec Ideal S64x512 φ₁) (r : FVec Ideal S2048x512 φ₂) (p : Fin 64) (j : Fin 2048) :
    matmul (F := Ideal) dot_S64x512_S2048x512_S64x2048_1_1_0_0_n_n none l r (constant (F := Ideal) S64x2048 .f32 0x00000000#32) (ix2 p j)
      = ∑ k : Fin 512, l (ix2 p k) * r (ix2 j k) := by
  simp only [matmul]
  rw [Ideal.matmul_constant_zero_apply, ← Equiv.sum_comp (contrEquiv1 dot_S64x512_S2048x512_S64x2048_1_1_0_0_n_n 512 rfl rfl).symm]
  refine Finset.sum_congr rfl fun k _ => ?_
  have hk := contrEquiv1_symm_val dot_S64x512_S2048x512_S64x2048_1_1_0_0_n_n 512 rfl rfl k
  have el : dot_S64x512_S2048x512_S64x2048_1_1_0_0_n_n.lhsIdx (ix2 p j) ((contrEquiv1 dot_S64x512_S2048x512_S64x2048_1_1_0_0_n_n 512 rfl rfl).symm k) = ix2 p k :=
    funext fun a => Fin.ext (by
      match a with
      | ⟨0, _⟩ => exact qs_l0 _ _
      | ⟨1, _⟩ => exact (dot_S64x512_S2048x512_S64x2048_1_1_0_0_n_n.lhsIdx_val_of_single rfl _ _).trans hk)
  have er : dot_S64x512_S2048x512_S64x2048_1_1_0_0_n_n.rhsIdx (ix2 p j) ((contrEquiv1 dot_S64x512_S2048x512_S64x2048_1_1_0_0_n_n 512 rfl rfl).symm k) = ix2 j k :=
    funext fun a => Fin.ext (by
      match a with
      | ⟨0, _⟩ => exact qs_r0 _ _
      | ⟨1, _⟩ => exact (dot_S64x512_S2048x512_S64x2048_1_1_0_0_n_n.rhsIdx_val_of_single rfl _ _).trans hk)
  rw [el, er]

/-! ## weights × rows: [64, 2048] with [2048, 1024] to [64, 1024] -/

theorem ex_l0 (i : S64x1024.Idx) (q : dot_S64x2048_S2048x1024_S64x1024_1_0_0_1_n_n.contr.Idx) :
    (dot_S64x2048_S2048x1024_S64x1024_1_0_0_1_n_n.lhsIdx i q 0).val = (i 0).val := by
  unfold DotDims.lhsIdx
  rw [dif_neg (show ¬(0 : Fin S64x2048.rank) ∈ dot_S64x2048_S2048x1024_S64x1024_1_0_0_1_n_n.lhsBatch by decide),
    dif_pos (show (0 : Fin S64x2048.rank) ∈ dot_S64x2048_S2048x1024_S64x1024_1_0_0_1_n_n.lhsNonContracting by decide)]
  rfl
theorem ex_r1 (i : S64x1024.Idx) (q : dot_S64x2048_S2048x1024_S64x1024_1_0_0_1_n_n.contr.Idx) :
    (dot_S64x2048_S2048x1024_S64x1024_1_0_0_1_n_n.rhsIdx i q 1).val = (i 1).val := by
  unfold DotDims.rhsIdx
  rw [dif_neg (show ¬(1 : Fin S2048x1024.rank) ∈ dot_S64x2048_S2048x1024_S64x1024_1_0_0_1_n_n.rhsBatch by decide),
    dif_pos (show (1 : Fin S2048x1024.rank) ∈ dot_S64x2048_S2048x1024_S64x1024_1_0_0_1_n_n.rhsNonContracting by decide)]
  rfl

/-- Entry (p, c) of weights × rows is ∑_k l(p, k) · r(k, c). -/
theorem ex_apply {φ₁ φ₂ : FTy} (l : FVec Ideal S64x2048 φ₁) (r : FVec Ideal S2048x1024 φ₂) (p : Fin 64) (c : Fin 1024) :
    matmul (F := Ideal) dot_S64x2048_S2048x1024_S64x1024_1_0_0_1_n_n none l r (constant (F := Ideal) S64x1024 .f32 0x00000000#32) (ix2 p c)
      = ∑ k : Fin 2048, l (ix2 p k) * r (ix2 k c) := by
  simp only [matmul]
  rw [Ideal.matmul_constant_zero_apply, ← Equiv.sum_comp (contrEquiv1 dot_S64x2048_S2048x1024_S64x1024_1_0_0_1_n_n 2048 rfl rfl).symm]
  refine Finset.sum_congr rfl fun k _ => ?_
  have hk := contrEquiv1_symm_val dot_S64x2048_S2048x1024_S64x1024_1_0_0_1_n_n 2048 rfl rfl k
  have el : dot_S64x2048_S2048x1024_S64x1024_1_0_0_1_n_n.lhsIdx (ix2 p c) ((contrEquiv1 dot_S64x2048_S2048x1024_S64x1024_1_0_0_1_n_n 2048 rfl rfl).symm k) = ix2 p k :=
    funext fun a => Fin.ext (by
      match a with
      | ⟨0, _⟩ => exact ex_l0 _ _
      | ⟨1, _⟩ => exact (dot_S64x2048_S2048x1024_S64x1024_1_0_0_1_n_n.lhsIdx_val_of_single rfl _ _).trans hk)
  have er : dot_S64x2048_S2048x1024_S64x1024_1_0_0_1_n_n.rhsIdx (ix2 p c) ((contrEquiv1 dot_S64x2048_S2048x1024_S64x1024_1_0_0_1_n_n 2048 rfl rfl).symm k) = ix2 k c :=
    funext fun a => Fin.ext (by
      match a with
      | ⟨0, _⟩ => exact (dot_S64x2048_S2048x1024_S64x1024_1_0_0_1_n_n.rhsIdx_val_of_single rfl _ _).trans hk
      | ⟨1, _⟩ => exact ex_r1 _ _)
  rw [el, er]

end Cert.KernelIdeal.Dots

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.KernelTile.lean ====
/-
  One run of the kernel body on a row tile, read entry by entry at the ideal values.

  With the loaded blocks x (the tile's 2048 rows), W, bias and q, the body's logit of query p against row j of the tile is
    ℓ(p, j) = ∑_d q(p, d) · (∑_c x(j, c) · W(d, c) + bias(d)),
  and from what the scratch held before — running maximum m(p), running denominator l(p), running numerator acc(p, c) — the
  body computes exactly one step of online softmax for each query p:
    m'(p) = max m(p) (max_j ℓ(p, j)),
    l'(p) = e^{m(p) − m'(p)} · l(p) + ∑_j e^{ℓ(p, j) − m'(p)},
    acc'(p, c) = e^{m(p) − m'(p)} · acc(p, c) + ∑_j e^{ℓ(p, j) − m'(p)} · x(j, c),
  and, at the last tile, the quotient acc'(p, c) / l'(p). A change of float format is the identity at the ideal values, so the
  casts to the narrow format around the three matrix products disappear.
-/
import proofs.«118231_j58368605552826_2_alg».proof.Proof.Gen.KernelIdeal.Skeleton
import proofs.«118231_j58368605552826_2_alg».proof.Proof.KernelDots
import proofs.«118231_j58368605552826_2_alg».proof.Proof.AttnSpec
import proofs.«118231_j58368605552826_2_alg».proof.Proof.LibRowReads
import proofs.«118231_j58368605552826_2_alg».proof.Proof.LibColumnReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.AttnPool

/-- The word 0xFF800000 is −∞. -/
theorem negInf : Ideal.ofBits .f32 0xFF800000#32 = (⊥ : EReal) := by
  simp [Ideal.ofBits, Ideal.ieee]

/-- The tile's logit of query `p` against its row `j`, from the loaded blocks. -/
def tileLogit (x0 : Vec Ideal S1x2048x1024 .f32) (x1 : Vec Ideal S512x1024 .bf16) (x2 : Vec Ideal S1x512 .f32)
    (x3 : Vec Ideal S64x512 .bf16) (p : Fin 64) (j : Fin 2048) : EReal :=
  ∑ d : Fin 512, x3 (ix2 p d) * ((∑ c : Fin 1024, x0 (ix3 (0 : Fin 1) j c) * x1 (ix2 d c)) + x2 (ix2 (0 : Fin 1) d))

variable (x0 : Vec Ideal S1x2048x1024 .f32) (x1 : Vec Ideal S512x1024 .bf16) (x2 : Vec Ideal S1x512 .f32)
  (x3 : Vec Ideal S64x512 .bf16)

/-- The tile's logits depend on the loaded blocks only through their entries. -/
theorem tileLogit_congr (X : Fin 2048 → Fin 1024 → EReal) (W : Fin 512 → Fin 1024 → EReal) (B : Fin 512 → EReal)
    (Q : Fin 64 → Fin 512 → EReal) (hx : ∀ j c, x0 (ix3 (0 : Fin 1) j c) = X j c) (hw : ∀ d c, x1 (ix2 d c) = W d c)
    (hb : ∀ d, x2 (ix2 (0 : Fin 1) d) = B d) (hq : ∀ p d, x3 (ix2 p d) = Q p d) (p : Fin 64) (j : Fin 2048) :
    tileLogit x0 x1 x2 x3 p j = ∑ d : Fin 512, Q p d * ((∑ c : Fin 1024, X j c * W d c) + B d) := by
  unfold tileLogit
  simp only [hx, hw, hb, hq]

/-- The tile's rows as a matrix: the leading unit axis dropped, the format change the identity. -/
theorem rows_apply (j : Fin 2048) (c : Fin 1024) : k0_pay7 (F := Ideal) x0 (ix2 j c) = x0 (ix3 (0 : Fin 1) j c) := by
  unfold k0_pay7
  exact shapeCast_1ab_ab_apply x0 _ j c

/-- The logits matrix the body computes is the tile's logits. -/
theorem logits_apply (p : Fin 64) (j : Fin 2048) : k0_pay8 (F := Ideal) x0 x1 x2 x3 (ix2 p j) = tileLogit x0 x1 x2 x3 p j := by
  unfold k0_pay8
  rw [Dots.qs_apply]
  unfold tileLogit
  refine Finset.sum_congr rfl fun d _ => ?_
  rw [shapeCast_self, shapeCast_self, shapeCast_self]
  show x3 (ix2 p d) * (matmul (F := Ideal) dot_S2048x1024_S512x1024_S2048x512_1_1_0_0_n_n none (k0_pay7 x0) x1
      (constant (F := Ideal) S2048x512 .f32 0x00000000#32) (ix2 j d) + broadcastTo S2048x512 x2 broadcasts_S1x512_S2048x512 (ix2 j d)) = _
  rw [Dots.xw_apply, broadcastTo_1b_ab_apply]
  simp only [rows_apply]

variable (v17 : Vec Ideal S64x1 .f32)

/-- The new running maximum. -/
theorem newMax_apply (p : Fin 64) :
    k0_pay9 (F := Ideal) x0 x1 x2 x3 v17 (ix2 p (0 : Fin 1)) = stepM (v17 (ix2 p (0 : Fin 1))) (tileLogit x0 x1 x2 x3 p) := by
  unfold k0_pay9
  show max (v17 (ix2 p (0 : Fin 1))) (shapeCast S64x1 (multiReduction (F := Ideal) .maximumf [1] S64 (k0_pay8 x0 x1 x2 x3) 0xFF800000#32
      reduces_S64x2048_S64 (.inl rfl) rfl) shapeCasts_S64_S64x1 (ix2 p (0 : Fin 1))) = _
  rw [Cert.LibColumnReads.shapeCast_a_a1_apply]
  unfold stepM
  refine congrArg (max (v17 (ix2 p (0 : Fin 1)))) ?_
  refine (Cert.LibRowReads.rowMax_apply (k0_pay8 (F := Ideal) x0 x1 x2 x3) 0xFF800000#32 reduces_S64x2048_S64 (.inl rfl) rfl p).trans ?_
  rw [negInf]
  unfold rowMax
  exact congrArg (fun f => Finset.fold max (⊥ : EReal) f (Finset.univ : Finset (Fin 2048)))
    (funext fun k => logits_apply x0 x1 x2 x3 p k)

/-- The rescaling factor e^{m − m'}. -/
theorem rescale_apply (p : Fin 64) :
    k0_pay10 (F := Ideal) x0 x1 x2 x3 v17 (ix2 p (0 : Fin 1))
      = Ideal.exp (v17 (ix2 p (0 : Fin 1)) - stepM (v17 (ix2 p (0 : Fin 1))) (tileLogit x0 x1 x2 x3 p)) := by
  unfold k0_pay10
  show Ideal.exp (v17 (ix2 p (0 : Fin 1)) - k0_pay9 (F := Ideal) x0 x1 x2 x3 v17 (ix2 p (0 : Fin 1))) = _
  rw [newMax_apply]

/-- The tile's exponentials e^{ℓ(p, j) − m'(p)}. -/
theorem expo_apply (p : Fin 64) (j : Fin 2048) :
    k0_pay11 (F := Ideal) x0 x1 x2 x3 v17 (ix2 p j)
      = Ideal.exp (tileLogit x0 x1 x2 x3 p j - stepM (v17 (ix2 p (0 : Fin 1))) (tileLogit x0 x1 x2 x3 p)) := by
  unfold k0_pay11
  show Ideal.exp (k0_pay8 (F := Ideal) x0 x1 x2 x3 (ix2 p j)
      - broadcastTo S64x2048 (k0_pay9 (F := Ideal) x0 x1 x2 x3 v17) broadcasts_S64x1_S64x2048 (ix2 p j)) = _
  rw [logits_apply, Cert.LibColumnReads.broadcastTo_a1_ab_apply, newMax_apply]

/-- The new running denominator. -/
theorem newDen_apply (v26 : Vec Ideal S64x1 .f32) (p : Fin 64) :
    k0_pay12 (F := Ideal) x0 x1 x2 x3 v17 v26 (ix2 p (0 : Fin 1))
      = stepL (v17 (ix2 p (0 : Fin 1))) (v26 (ix2 p (0 : Fin 1))) (tileLogit x0 x1 x2 x3 p) := by
  unfold k0_pay12
  rw [shapeCast_self]
  show k0_pay10 (F := Ideal) x0 x1 x2 x3 v17 (ix2 p (0 : Fin 1)) * v26 (ix2 p (0 : Fin 1))
      + shapeCast S64x1 (multiReduction (F := Ideal) .add [1] S64 (k0_pay11 x0 x1 x2 x3 v17) 0x00000000#32 reduces_S64x2048_S64 (.inl rfl) rfl)
          shapeCasts_S64_S64x1 (ix2 p (0 : Fin 1)) = _
  rw [rescale_apply, Cert.LibColumnReads.shapeCast_a_a1_apply]
  unfold stepL
  refine congrArg (fun z => Ideal.exp (v17 (ix2 p (0 : Fin 1)) - stepM (v17 (ix2 p (0 : Fin 1))) (tileLogit x0 x1 x2 x3 p)) * v26 (ix2 p (0 : Fin 1)) + z) ?_
  refine (Cert.LibRowReads.rowSum_apply (k0_pay11 (F := Ideal) x0 x1 x2 x3 v17) 0x00000000#32 reduces_S64x2048_S64 (.inl rfl) rfl p).trans ?_
  exact Finset.sum_congr rfl fun j _ => expo_apply x0 x1 x2 x3 v17 p j

/-- The new running numerator. -/
theorem newNum_apply (v36 : Vec Ideal S64x1024 .f32) (p : Fin 64) (c : Fin 1024) :
    k0_pay1 (F := Ideal) (k0_pay7 x0) (k0_pay10 x0 x1 x2 x3 v17) (k0_pay13 x0 x1 x2 x3 v17) v36 (ix2 p c)
      = stepA (v17 (ix2 p (0 : Fin 1))) (v36 (ix2 p c)) (tileLogit x0 x1 x2 x3 p) (fun j => x0 (ix3 (0 : Fin 1) j c)) := by
  unfold k0_pay1
  rw [shapeCast_self]
  show broadcastTo S64x1024 (k0_pay10 (F := Ideal) x0 x1 x2 x3 v17) broadcasts_S64x1_S64x1024 (ix2 p c) * v36 (ix2 p c)
      + matmul (F := Ideal) dot_S64x2048_S2048x1024_S64x1024_1_0_0_1_n_n none (k0_pay13 x0 x1 x2 x3 v17) (k0_pay7 x0)
          (constant (F := Ideal) S64x1024 .f32 0x00000000#32) (ix2 p c) = _
  rw [Cert.LibColumnReads.broadcastTo_a1_ab_apply, rescale_apply, Dots.ex_apply]
  unfold stepA
  refine congrArg _ (Finset.sum_congr rfl fun j _ => ?_)
  rw [rows_apply]
  exact congrArg (· * _) (expo_apply x0 x1 x2 x3 v17 p j)

/-- The quotient stored into the output block. -/
theorem quot_apply (v49 : Vec Ideal S64x1024 .f32) (v50 : Vec Ideal S64x1 .f32) (p : Fin 64) (c : Fin 1024) :
    k0_pay3 (F := Ideal) v49 v50 (ix3 (0 : Fin 1) p c) = Ideal.div (v49 (ix2 p c)) (v50 (ix2 p (0 : Fin 1))) := by
  unfold k0_pay3
  rw [shapeCast_ab_1ab_apply]
  show Ideal.div (v49 (ix2 p c)) (broadcastTo S64x1024 v50 broadcasts_S64x1_S64x1024 (ix2 p c)) = _
  rw [Cert.LibColumnReads.broadcastTo_a1_ab_apply]

/-- The reset values: the running maximum −∞, the running denominator and numerator 0. -/
theorem resetMax_apply (i : S64x1.Idx) : k0_pay4 (F := Ideal) i = (⊥ : EReal) := by
  unfold k0_pay4
  rw [shapeCast_self]
  exact negInf
theorem resetDen_apply (i : S64x1.Idx) : k0_pay5 (F := Ideal) i = (0 : EReal) := by
  unfold k0_pay5
  rw [shapeCast_self]
  exact Ideal.ofBits_zero_f32
theorem resetNum_apply (i : S64x1024.Idx) : k0_pay6 (F := Ideal) i = (0 : EReal) := by
  unfold k0_pay6
  rw [shapeCast_self]
  exact Ideal.ofBits_zero_f32

/-- Storing a running maximum does not change it. -/
theorem storeMax_eq (v : FVec Ideal S64x1 .f32) : k0_pay2 (F := Ideal) v = v := by
  unfold k0_pay2
  exact shapeCast_self _ _

/-! ## The two tiles of a batch entry composed -/

/-- What the last tile stores into the output block, when the scratch holds what the first tile left: with `y·` the
    first tile's loaded blocks and `x·` the last tile's, entry (p, c) is the two-tile online softmax of the two tiles'
    logits and rows — the first tile's update starts from the reset values −∞, 0, 0. -/
theorem twoTiles_apply (y0 : Vec Ideal S1x2048x1024 .f32) (y1 : Vec Ideal S512x1024 .bf16) (y2 : Vec Ideal S1x512 .f32)
    (y3 : Vec Ideal S64x512 .bf16) (p : Fin 64) (c : Fin 1024) :
    k0_pay3 (F := Ideal)
        (k0_pay1 (k0_pay7 x0) (k0_pay10 x0 x1 x2 x3 (k0_pay2 (k0_pay9 y0 y1 y2 y3 (k0_pay4 (F := Ideal)))))
          (k0_pay13 x0 x1 x2 x3 (k0_pay2 (k0_pay9 y0 y1 y2 y3 (k0_pay4 (F := Ideal)))))
          (k0_pay1 (k0_pay7 y0) (k0_pay10 y0 y1 y2 y3 (k0_pay4 (F := Ideal))) (k0_pay13 y0 y1 y2 y3 (k0_pay4 (F := Ideal))) (k0_pay6 (F := Ideal))))
        (k0_pay12 x0 x1 x2 x3 (k0_pay2 (k0_pay9 y0 y1 y2 y3 (k0_pay4 (F := Ideal)))) (k0_pay12 y0 y1 y2 y3 (k0_pay4 (F := Ideal)) (k0_pay5 (F := Ideal))))
        (ix3 (0 : Fin 1) p c)
      = onlinePool (tileLogit y0 y1 y2 y3 p) (tileLogit x0 x1 x2 x3 p) (fun j => y0 (ix3 (0 : Fin 1) j c))
          (fun j => x0 (ix3 (0 : Fin 1) j c)) := by
  rw [quot_apply, newNum_apply, newDen_apply, storeMax_eq, newMax_apply, newNum_apply, newDen_apply, resetMax_apply,
    resetDen_apply, resetNum_apply]
  rfl

end Cert.KernelIdeal.Tile

end
-- ==== Proof.KernelValue.lean ====
/-
  The kernel's result array, as one function of the argument arrays.

  The grid has 16 points, point t working on batch entry t / 2 and row tile t % 2. The weights arrive in the narrow format and
  the bias as a one-row matrix, both prepared before the region by operations that are the identity at the ideal values (a
  format change, a reshape). At an even point the body resets the scratch and folds in the first tile; at the odd point that
  follows it folds in the second tile and stores the quotient, and only then is the output block written back. So the block
  written back at point 2b + 1 holds, at (p, c), the two-tile online softmax of query p's logits against the 4096 rows of
  batch entry b and of column c of those rows: the specification's tile-by-tile pooling read through the block. The eight
  written blocks tile the result array.
-/
import proofs.«118231_j58368605552826_2_alg».proof.Proof.Gen.KernelIdeal.Value
import proofs.«118231_j58368605552826_2_alg».proof.Proof.KernelPieces
import proofs.«118231_j58368605552826_2_alg».proof.Proof.KernelTile
import proofs.«118231_j58368605552826_2_alg».proof.Proof.AttnSpec
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pooled

open Cert.KernelIdeal Cert.KernelIdeal.Gen Cert.KernelIdeal.Value Idealize.ShloMosaic.ValueIdx Cert.AttnPool

variable (m : (ℓ : Loc nD τ sig) → Buf (Elt Ideal) ℓ) (ρ : Dev nD → PrngReg)

/-! ## The arrays the region finds -/

/-- The weights the region finds are the argument's, the format change being the identity. -/
theorem V_w (c : Dev nD) : (V m c main_v0 : S512x1024.Idx → EReal) = m ((c : Thread nD τ).loc main_arg1) := by
  dsimp only [V, hostOps0]; after_results; rfl

/-- So are the queries. -/
theorem V_q (c : Dev nD) : (V m c main_v1 : S64x512.Idx → EReal) = m ((c : Thread nD τ).loc main_arg3) := by
  dsimp only [V, hostOps0]; after_results; rfl

/-- The bias the region finds is the argument recast as one row. -/
theorem V_b (c : Dev nD) : (V m c main_v2 : S1x512.Idx → EReal)
    = shapeCast S1x512 (m ((c : Thread nD τ).loc main_arg2)) shapeCasts_S512_S1x512 := by
  dsimp only [V, hostOps0]; after_results; rfl

/-! ## The index maps over the grid -/

/-- The printed index maps, decided once over the grid: the row tiles move with the point (batch entry t / 2, tile
    t % 2), the weights, bias and queries stay at block 0, the output block is the batch entry's. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 2 ∧ win0_4.index t (1 : Fin 3) = 0 ∧ win0_4.index t (2 : Fin 3) = 0 :=
  (by decide +kernel : ∀ t : Fin grid0.N, _)

/-- The batch entry and the tile of a grid point. -/
def bOf (t : Fin cfg0.N) : Fin 8 := ⟨t.val / 2, by have := lt_of_lt_of_eq t.isLt (show cfg0.N = 16 from N_0); omega⟩
def nOf (t : Fin cfg0.N) : Fin 2 := ⟨t.val % 2, by omega⟩

/-! ## The input blocks, read at an index -/

/-- Row j, column cc of the rows block at point t is row (t % 2) · 2048 + j of batch entry t / 2. -/
theorem blkX_apply (c : Dev nD) (t : Fin cfg0.N) (j : Fin 2048) (cc : Fin 1024) :
    (iblk m c 0 t : S1x2048x1024.Idx → EReal) (ix3 (0 : Fin 1) j cc)
      = m ((c : Thread nD τ).loc main_arg0) (ix3 (bOf t) (tileRow (nOf t) j) cc) := by
  obtain ⟨e0, e1, e2, -⟩ := idx_facts t
  unfold iblk
  rw [View.read_apply]
  show V m c main_arg0 (((cfg0.win 0).blk t).view.emb (ix3 (0 : Fin 1) j cc)) = _
  rw [V_main_arg0]
  refine congrArg _ (funext fun a => Fin.ext ?_)
  match a with
  | ⟨0, _⟩ => show win0_0.index t (0 : Fin 3) * 1 + 1 * 0 = t.val / 2; omega
  | ⟨1, _⟩ => show win0_0.index t (1 : Fin 3) * 2048 + 1 * j.val = t.val % 2 * 2048 + j.val; rw [e1]; omega
  | ⟨2, _⟩ => show win0_0.index t (2 : Fin 3) * 1024 + 1 * cc.val = cc.val; omega

/-- The weights block is the whole weights array. -/
theorem blkW_apply (c : Dev nD) (t : Fin cfg0.N) (d : Fin 512) (cc : Fin 1024) :
    (iblk m c 1 t : S512x1024.Idx → EReal) (ix2 d cc) = m ((c : Thread nD τ).loc main_arg1) (ix2 d cc) := by
  obtain ⟨-, -, -, e0, e1, -⟩ := idx_facts t
  unfold iblk
  rw [View.read_apply]
  show V m c main_v0 (((cfg0.win 1).blk t).view.emb (ix2 d cc)) = _
  rw [V_w]
  refine congrArg _ (funext fun a => Fin.ext ?_)
  match a with
  | ⟨0, _⟩ => show win0_1.index t (0 : Fin 2) * 512 + 1 * d.val = d.val; omega
  | ⟨1, _⟩ => show win0_1.index t (1 : Fin 2) * 1024 + 1 * cc.val = cc.val; omega

/-- The bias block's one row is the bias vector. -/
theorem blkB_apply (c : Dev nD) (t : Fin cfg0.N) (d : Fin 512) :
    (iblk m c 2 t : S1x512.Idx → EReal) (ix2 (0 : Fin 1) d) = m ((c : Thread nD τ).loc main_arg2) (ix1 d) := by
  obtain ⟨-, -, -, -, -, e0, e1, -⟩ := idx_facts t
  unfold iblk
  rw [View.read_apply]
  show V m c main_v2 (((cfg0.win 2).blk t).view.emb (ix2 (0 : Fin 1) d)) = _
  rw [V_b]
  refine (congrArg _ (funext fun a => Fin.ext ?_)).trans (shapeCast_a_1a_apply (m ((c : Thread nD τ).loc main_arg2)) shapeCasts_S512_S1x512 (0 : Fin 1) d)
  match a with
  | ⟨0, _⟩ => show win0_2.index t (0 : Fin 2) * 1 + 1 * 0 = 0; omega
  | ⟨1, _⟩ => show win0_2.index t (1 : Fin 2) * 512 + 1 * d.val = d.val; omega

/-- The queries block is the whole queries array. -/
theorem blkQ_apply (c : Dev nD) (t : Fin cfg0.N) (p : Fin 64) (d : Fin 512) :
    (iblk m c 3 t : S64x512.Idx → EReal) (ix2 p d) = m ((c : Thread nD τ).loc main_arg3) (ix2 p d) := by
  obtain ⟨-, -, -, -, -, -, -, e0, e1, -⟩ := idx_facts t
  unfold iblk
  rw [View.read_apply]
  show V m c main_v1 (((cfg0.win 3).blk t).view.emb (ix2 p d)) = _
  rw [V_q]
  refine congrArg _ (funext fun a => Fin.ext ?_)
  match a with
  | ⟨0, _⟩ => show win0_3.index t (0 : Fin 2) * 64 + 1 * p.val = p.val; omega
  | ⟨1, _⟩ => show win0_3.index t (1 : Fin 2) * 512 + 1 * d.val = d.val; omega

/-- The logits a point's body computes from its blocks are the specification's logits of the point's batch entry against
    the rows of the point's tile. -/
theorem tileLogit_blk (c : Dev nD) (t : Fin cfg0.N) (p : Fin 64) (j : Fin 2048) :
    Tile.tileLogit (iblk m c 0 t) (iblk m c 1 t) (iblk m c 2 t) (iblk m c 3 t) p j
      = logit (m ((c : Thread nD τ).loc main_arg0)) (m ((c : Thread nD τ).loc main_arg1)) (m ((c : Thread nD τ).loc main_arg2))
          (m ((c : Thread nD τ).loc main_arg3)) (bOf t) p (tileRow (nOf t) j) := by
  exact Tile.tileLogit_congr (iblk m c 0 t) (iblk m c 1 t) (iblk m c 2 t) (iblk m c 3 t)
    (fun j cc => m ((c : Thread nD τ).loc main_arg0) (ix3 (bOf t) (tileRow (nOf t) j) cc))
    (fun d cc => m ((c : Thread nD τ).loc main_arg1) (ix2 d cc)) (fun d => m ((c : Thread nD τ).loc main_arg2) (ix1 d))
    (fun p d => m ((c : Thread nD τ).loc main_arg3) (ix2 p d)) (blkX_apply m c t) (blkW_apply m c t) (blkB_apply m c t)
    (blkQ_apply m c t) p j

/-! ## What a flushing point writes back -/

/-- A point that writes the output back is odd, t = 2b + 1: its body ran the last-tile case over the scratch the point
    before (even, the first-tile case, which stores the scratch whole) left, so what it writes is the two-tile online
    softmax of batch entry b, read through the block. -/
theorem flushed_eq (c : Dev nD) (t : Fin cfg0.N) (hf : (cfg0.win 4).flush t = true) :
    (dats m 0 c).flushed 4 t = ((cfg0.win 4).blk t).view.read (Elt Ideal)
      (pooledOnline (m ((c : Thread nD τ).loc main_arg0)) (m ((c : Thread nD τ).loc main_arg1)) (m ((c : Thread nD τ).loc main_arg2))
          (m ((c : Thread nD τ).loc main_arg3))) := by
  have hN : t.val < 16 := lt_of_lt_of_eq t.isLt (show cfg0.N = 16 from N_0)
  have h1 : t.val % 2 = 1 := (flush0_4 t).mp hf
  have h0 : ¬t.val % 2 = 0 := by omega
  have hlt : t.val - 1 < cfg0.N := Nat.lt_of_le_of_lt (Nat.sub_le _ _) t.isLt
  have h0' : (⟨t.val - 1, hlt⟩ : Fin cfg0.N).val % 2 = 0 := by dsimp only; omega
  have h1' : ¬(⟨t.val - 1, hlt⟩ : Fin cfg0.N).val % 2 = 1 := by dsimp only; omega
  rw [flushed4_B m c t h0 h1]
  have eA := outsAt0_A m c ⟨t.val - 1, hlt⟩ h0' h1'
  dsimp only at eA
  rw [eA]
  dsimp only
  rw [Pieces.sA0, Pieces.sA1, Pieces.sA2, Pieces.oB4]
  funext y
  obtain ⟨u, p, cc, rfl⟩ : ∃ (u : Fin 1) (p : Fin 64) (cc : Fin 1024), y = ix3 u p cc := ⟨y 0, y 1, y 2, eq_ix3 y⟩
  obtain rfl : u = 0 := Subsingleton.elim _ _
  refine (Tile.twoTiles_apply (iblk m c 0 t) (iblk m c 1 t) (iblk m c 2 t) (iblk m c 3 t) (iblk m c 0 ⟨t.val - 1, hlt⟩)
    (iblk m c 1 ⟨t.val - 1, hlt⟩) (iblk m c 2 ⟨t.val - 1, hlt⟩) (iblk m c 3 ⟨t.val - 1, hlt⟩) p cc).trans ?_
  have hb' : bOf ⟨t.val - 1, hlt⟩ = bOf t := Fin.ext (by show (t.val - 1) / 2 = t.val / 2; omega)
  have hn' : nOf ⟨t.val - 1, hlt⟩ = 0 := Fin.ext (by show (t.val - 1) % 2 = 0; omega)
  have hn : nOf t = 1 := Fin.ext (by show t.val % 2 = 1; exact h1)
  obtain ⟨-, -, -, -, -, -, -, -, -, i0, i1, i2⟩ := idx_facts t
  have hemb : ((cfg0.win 4).blk t).view.emb (ix3 (0 : Fin 1) p cc) = ix3 (bOf t) p cc := funext fun a => Fin.ext (by
    match a with
    | ⟨0, _⟩ => show win0_4.index t (0 : Fin 3) * 1 + 1 * 0 = t.val / 2; omega
    | ⟨1, _⟩ => show win0_4.index t (1 : Fin 3) * 64 + 1 * p.val = p.val; omega
    | ⟨2, _⟩ => show win0_4.index t (2 : Fin 3) * 1024 + 1 * cc.val = cc.val; omega)
  rw [View.read_apply, hemb]
  have e0 : (fun j => Tile.tileLogit (iblk m c 0 ⟨t.val - 1, hlt⟩) (iblk m c 1 ⟨t.val - 1, hlt⟩) (iblk m c 2 ⟨t.val - 1, hlt⟩)
      (iblk m c 3 ⟨t.val - 1, hlt⟩) p j)
      = fun j => logit (m ((c : Thread nD τ).loc main_arg0)) (m ((c : Thread nD τ).loc main_arg1)) (m ((c : Thread nD τ).loc main_arg2))
          (m ((c : Thread nD τ).loc main_arg3)) (bOf t) p (tileRow 0 j) :=
    funext fun j => by rw [tileLogit_blk m c ⟨t.val - 1, hlt⟩ p j, hb', hn']
  have e1 : (fun j => Tile.tileLogit (iblk m c 0 t) (iblk m c 1 t) (iblk m c 2 t) (iblk m c 3 t) p j)
      = fun j => logit (m ((c : Thread nD τ).loc main_arg0)) (m ((c : Thread nD τ).loc main_arg1)) (m ((c : Thread nD τ).loc main_arg2))
          (m ((c : Thread nD τ).loc main_arg3)) (bOf t) p (tileRow 1 j) :=
    funext fun j => by rw [tileLogit_blk m c t p j, hn]
  have e2 : (fun j : Fin 2048 => (iblk m c 0 ⟨t.val - 1, hlt⟩ : S1x2048x1024.Idx → EReal) (ix3 (0 : Fin 1) j cc))
      = fun j => m ((c : Thread nD τ).loc main_arg0) (ix3 (bOf t) (tileRow 0 j) cc) :=
    funext fun j => by rw [blkX_apply m c ⟨t.val - 1, hlt⟩ j cc, hb', hn']
  have e3 : (fun j : Fin 2048 => (iblk m c 0 t : S1x2048x1024.Idx → EReal) (ix3 (0 : Fin 1) j cc))
      = fun j => m ((c : Thread nD τ).loc main_arg0) (ix3 (bOf t) (tileRow 1 j) cc) :=
    funext fun j => by rw [blkX_apply m c t j cc, hn]
  unfold pooledOnline
  exact congr (congr (congr (congrArg onlinePool e0) e1) e2) e3

/-! ## The whole array -/

/-- An index of the result array is in point `t`'s block iff each coordinate is in the block's range on its axis. -/
theorem mem_blk (t : Fin cfg0.N) (i : S8x64x1024.Idx) :
    i ∈ ((cfg0.win 4).blk t).view.set ↔ ∀ a : Fin 3, win0_4.index t a * S1x64x1024.size a ≤ (i a).val
      ∧ (i a).val < win0_4.index t a * S1x64x1024.size a + S1x64x1024.size a := by
  show i ∈ ((View.whole main_v3).slice (win0_4.rect t)).set ↔ _
  rw [View.set_slice_whole, Rect.mem_set_unit]
  exact Iff.rfl

/-- The result array after the run: batch entry b is written back once, after its last tile (point 2b + 1), and that
    block is the entry's slice of the tile-by-tile pooling; the eight blocks fill the array. -/
theorem final (c : Dev nD) : (dats m 0 c).arrAt 4 cfg0.N
    = pooledOnline (m ((c : Thread nD τ).loc main_arg0)) (m ((c : Thread nD τ).loc main_arg1)) (m ((c : Thread nD τ).loc main_arg2))
        (m ((c : Thread nD τ).loc main_arg3)) :=
  (dats m 0 c).arrAt_eq_of_cover 4 _ (flushed_eq m c) fun i => by
    have hi0 : (i 0 : Nat) < 8 := (i 0).isLt
    have hi1 : (i 1 : Nat) < 64 := (i 1).isLt
    have hi2 : (i 2 : Nat) < 1024 := (i 2).isLt
    have hlt : 2 * (i 0 : Nat) + 1 < cfg0.N := by rw [show cfg0.N = 16 from N_0]; omega
    refine ⟨⟨2 * (i 0 : Nat) + 1, hlt⟩, (flush0_4 _).mpr (by show (2 * (i 0 : Nat) + 1) % 2 = 1; omega), ?_⟩
    rw [mem_blk]
    obtain ⟨-, -, -, -, -, -, -, -, -, i0, i1, i2⟩ := idx_facts ⟨2 * (i 0 : Nat) + 1, hlt⟩
    have i0' : win0_4.index ⟨2 * (i 0 : Nat) + 1, hlt⟩ (0 : Fin 3) = (2 * (i 0 : Nat) + 1) / 2 := i0
    intro a
    match a with
    | ⟨0, _⟩ =>
      show win0_4.index ⟨2 * (i 0 : Nat) + 1, hlt⟩ (0 : Fin 3) * 1 ≤ (i 0 : Nat)
        ∧ (i 0 : Nat) < win0_4.index ⟨2 * (i 0 : Nat) + 1, hlt⟩ (0 : Fin 3) * 1 + 1
      omega
    | ⟨1, _⟩ =>
      show win0_4.index ⟨2 * (i 0 : Nat) + 1, hlt⟩ (1 : Fin 3) * 64 ≤ (i 1 : Nat)
        ∧ (i 1 : Nat) < win0_4.index ⟨2 * (i 0 : Nat) + 1, hlt⟩ (1 : Fin 3) * 64 + 64
      omega
    | ⟨2, _⟩ =>
      show win0_4.index ⟨2 * (i 0 : Nat) + 1, hlt⟩ (2 : Fin 3) * 1024 ≤ (i 2 : Nat)
        ∧ (i 2 : Nat) < win0_4.index ⟨2 * (i 0 : Nat) + 1, hlt⟩ (2 : Fin 3) * 1024 + 1024
      omega

/-- The kernel's run, read: the result array is the tile-by-tile pooling of the argument arrays, which end unchanged. -/
theorem run : θ_run defs (onTc (τ := τ) (main (F := Ideal))) ⟨m, fun _ => 0, ρ⟩ fun r => ∀ c : Dev nD,
      r.2.mem ((c : Thread nD τ).loc main_v3)
        = pooledOnline (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Pooled

end
-- ==== Proof.lean ====
/-
  Attention pooling by learned queries: a kernel that runs online softmax over two row tiles per batch entry, against a
  reference that takes one softmax over all rows.

  Both programs compute, for batch entry b, query m and column c, the softmax average (over the 4096 rows n) of x_{b,n,c}
  under the logits ℓ_{m,n} = ∑_d q_{m,d} · (∑_c x_{b,n,c} W_{d,c} + bias_d). The reference divides each weight
  e^{ℓ_n − M} by the sum S of the weights and then contracts with x; the kernel accumulates ∑ e^{ℓ_n − m} x_n and ∑ e^{ℓ_n − m}
  tile by tile, rescaling by e^{m_old − m_new} when the running maximum grows, and divides once at the end. For real inputs the
  logits are real, every exponential and S are positive reals, e^{m0 − m} e^{ℓ − m0} = e^{ℓ − m}, and (∑ e_n x_n) / S = ∑ (e_n / S) x_n:
  the two results agree. At an infinite input they need not (0 · ∞ and ∞ − ∞ take their conventional values), which is why the
  precondition that every input is finite is used.

  The frames of the two kernel programs are the generated ones; the reference's frame is its generated run with the result
  dropped; the idealization rewrote nothing.
-/
import proofs.«118231_j58368605552826_2_alg».proof.Defs
import proofs.«118231_j58368605552826_2_alg».proof.Proof.Gen.Kernel
import proofs.«118231_j58368605552826_2_alg».proof.Proof.Gen.Kernel.Frame
import proofs.«118231_j58368605552826_2_alg».proof.Proof.Gen.KernelIdeal
import proofs.«118231_j58368605552826_2_alg».proof.Proof.Gen.KernelIdeal.Frame
import proofs.«118231_j58368605552826_2_alg».proof.Proof.Gen.KernelIdeal.Value
import proofs.«118231_j58368605552826_2_alg».proof.Proof.Gen.ReferenceIdeal
import proofs.«118231_j58368605552826_2_alg».proof.Proof.Gen.ReferenceIdeal.Run
import proofs.«118231_j58368605552826_2_alg».proof.Proof.Gen.ReferenceIdeal.Read
import proofs.«118231_j58368605552826_2_alg».proof.Proof.Gen.Pre_finite_inputs
import proofs.«118231_j58368605552826_2_alg».proof.Proof.AttnSpec
import proofs.«118231_j58368605552826_2_alg».proof.Proof.AttnAlgebra
import proofs.«118231_j58368605552826_2_alg».proof.Proof.RefPooled
import proofs.«118231_j58368605552826_2_alg».proof.Proof.FiniteInputs
import proofs.«118231_j58368605552826_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments, which are finite: the kernel ends at the tile-by-tile pooling, the
    reference at the one-pass pooling, and for real inputs these are one array. -/
theorem algebraic : Cert.algebraic_KernelIdeal_ReferenceIdeal := by
  intro m ρ m' ρ' hpre hagree
  refine ⟨_, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hb, hq⟩ := Cert.AttnPool.Finite.real_of_pre _ _ _ _ (hpre c)
  rw [(hagree c).1, (hagree c).2.1, (hagree c).2.2.1, (hagree c).2.2.2, Cert.ReferenceIdeal.Read.val_main_v17_eq,
    Cert.AttnPool.Ref.ref_eq_pooled]
  exact (Cert.AttnPool.pooledOnline_eq_pooled _ _ _ _ hx hW hb hq).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
